-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S256x128 .f32) (main_arg7 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) (main_arg6 : FVec F S256x128 .f32) (main_arg7 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x256 : Shape := ⟨2, ![2000, 256]⟩
abbrev S2000x1 : Shape := ⟨2, ![2000, 1]⟩
abbrev S850000x256 : Shape := ⟨2, ![850000, 256]⟩
abbrev S1x256 : Shape := ⟨2, ![1, 256]⟩
abbrev S50000x128 : Shape := ⟨2, ![50000, 128]⟩

abbrev nBuf : Space → Nat
  | .hbm => 71
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .bf16⟩
  | .hbm, ⟨31, _⟩ => ⟨S256x256, .bf16⟩
  | .hbm, ⟨32, _⟩ => ⟨S256x256, .f32⟩
  | .hbm, ⟨33, _⟩ => ⟨S256x256, .bf16⟩
  | .hbm, ⟨34, _⟩ => ⟨S256, .f32⟩
  | .hbm, ⟨35, _⟩ => ⟨S50000x256, .bf16⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x256, .bf16⟩
  | .hbm, ⟨45, _⟩ => ⟨S850000x256, .f32⟩
  | .hbm, ⟨46, _⟩ => ⟨S_, .f32⟩
  | .hbm, ⟨47, _⟩ => ⟨S50000x256, .f32⟩
  | .hbm, ⟨48, _⟩ => ⟨S850000x1, .i32⟩
  | .hbm, ⟨49, _⟩ => ⟨S50000x256, .f32⟩
  | .hbm, ⟨50, _⟩ => ⟨S1x256, .f32⟩
  | .hbm, ⟨51, _⟩ => ⟨S50000x256, .bf16⟩
  | .hbm, ⟨52, _⟩ => ⟨S50000x256, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .bf16⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x128, .f32⟩
  | .hbm, ⟨70, _⟩ => ⟨S50000x128, .f32⟩
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S2000x1, .f32⟩
  | .local _ .vmem, ⟨4, _⟩ => ⟨S2000x1, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .bf16⟩
  | .local _ .vmem, ⟨13, _⟩ => ⟨S2000x256, .bf16⟩
  | .local _ .vmem, ⟨14, _⟩ => ⟨S2000x256, .bf16⟩
  | .local _ .vmem, ⟨15, _⟩ => ⟨S2000x256, .bf16⟩
  | .local _ .vmem, ⟨16, _⟩ => ⟨S256x256, .bf16⟩
  | .local _ .vmem, ⟨17, _⟩ => ⟨S2000x1, .f32⟩
  | .local _ .vmem, ⟨18, _⟩ => ⟨S2000x1, .f32⟩
  | .local _ .vmem, ⟨19, _⟩ => ⟨S2000x256, .bf16⟩
  | .local _ .vmem, ⟨20, _⟩ => ⟨S2000x256, .bf16⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  concatenates_S256x128_S256x128_S256x256_d1 : Shape.Concatenates [S256x128, S256x128] S256x256 1
  concatenates_S128_S128_S256_d0 : Shape.Concatenates [S128, S128] S256 0
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S50000x256_S50000x128_0_0 : S50000x256.Slices ![0, 0] S50000x128
  slices_S50000x256_S50000x128_0_128 : S50000x256.Slices ![0, 128] S50000x128
  scatter_S50000_S850000x1_S850000_n_0_0_1_wf : ScatterDims.WF S50000 S850000x1 S850000 [] [0] [0] 1
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .bf16 = 32 ∨ (Rect.block (s := S50000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .bf16 = 32 ∨ (Rect.block (s := S50000x256) S2000x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_v16) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x1, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.GcnSpec.lean ====
/-
  Two rounds of message passing on a graph with self-loops, as plain sums over the extended reals.

  A graph on N nodes has E directed edges. Edge e reads node s e and lands on the node whose number is hit e (a signed
  integer; an edge whose number is no node's lands nowhere). Every node v carries a factor D v (the inverse square root
  of its in-degree). One round takes a feature matrix Y (one row per node), and gives node v, in column j,

      the sum over the edges e landing on v of  Y (s e) j · D (s e) · D v,   plus a bias b j.

  There are two ways to arrange the two factors. The first scales every row of Y by its own node's factor before
  the rows are sent along the edges, sums what arrives, and scales the sum by the receiver's factor (layerK). The
  second sends the rows as they are and scales each message by the product of the sender's and the receiver's
  factor, the receiver found again from the edge (dn e), before summing (layerR). On the extended reals a product
  does not distribute over a sum in general; it does when every term is real, and then the two rounds agree
  (layer_eq), provided dn e is the node the edge lands on whenever it lands on one.

  The network is two such rounds: Y = X · W₁ in the first, a rectifier max(·, 0) on its result H, and Y = H · W₂ in the
  second (gcnK, gcnR; gcn_eq). The second round's weight matrix may be given as some columns of a wider one: a round's
  column j reads only column j of the weights and entry j of the bias (gcnK_cols).
-/
import proofs.«109774_j31593779429476_2_alg».proof.Proof.LibRealSums

noncomputable section

open scoped BigOperators

namespace Cert.Gcn

open Cert.RealSums

variable {N E K C : Nat}

/-- The matrix product: row n of H against column j of W. -/
def lin (H : Fin N → Fin K → EReal) (W : Fin K → Fin C → EReal) (n : Fin N) (j : Fin C) : EReal :=
  ∑ k : Fin K, H n k * W k j

theorem isReal_lin (H : Fin N → Fin K → EReal) (W : Fin K → Fin C → EReal) (hH : ∀ n k, IsReal (H n k))
    (hW : ∀ k j, IsReal (W k j)) (n : Fin N) (j : Fin C) : IsReal (lin H W n j) :=
  isReal_sum _ _ fun k _ => (hH n k).mul (hW k j)

/-- The edges that land on node v. -/
def into (hit : Fin E → Int) (v : Fin N) : Finset (Fin E) :=
  Finset.univ.filter fun e : Fin E => hit e = (v.val : Int)

/-- One round, the rows scaled before they are sent and the sum scaled after. -/
def layerK (s : Fin E → Fin N) (hit : Fin E → Int) (D : Fin N → EReal) (Y : Fin N → Fin C → EReal) (b : Fin C → EReal)
    (v : Fin N) (j : Fin C) : EReal :=
  (0 + ∑ e ∈ into hit v, Y (s e) j * D (s e)) * D v + b j

/-- One round, every message scaled by the product of its two ends' factors. -/
def layerR (s dn : Fin E → Fin N) (hit : Fin E → Int) (D : Fin N → EReal) (Y : Fin N → Fin C → EReal) (b : Fin C → EReal)
    (v : Fin N) (j : Fin C) : EReal :=
  (0 + ∑ e ∈ into hit v, Y (s e) j * (D (s e) * D (dn e))) + b j

/-- THE TWO ROUNDS AGREE on real features and real factors, when dn e is the node edge e lands on. -/
theorem layer_eq (s dn : Fin E → Fin N) (hit : Fin E → Int) (D : Fin N → EReal) (Y : Fin N → Fin C → EReal)
    (b : Fin C → EReal) (hY : ∀ n j, IsReal (Y n j)) (hD : ∀ n, IsReal (D n))
    (hdn : ∀ (e : Fin E) (v : Fin N), hit e = (v.val : Int) → dn e = v) (v : Fin N) (j : Fin C) :
    layerK s hit D Y b v j = layerR s dn hit D Y b v j := by
  unfold layerK layerR
  refine congrArg (· + b j) ?_
  exact scaled_sum_eq (into hit v) (fun e => Y (s e) j) (fun e => D (s e)) (fun e => D (dn e)) (D v)
    (fun e _ => hY (s e) j) (fun e _ => hD (s e))
    (fun e he => by rw [hdn e v (Finset.mem_filter.mp he).2]) (hD v)

/-- A round of real data gives real numbers. -/
theorem isReal_layerR (s dn : Fin E → Fin N) (hit : Fin E → Int) (D : Fin N → EReal) (Y : Fin N → Fin C → EReal)
    (b : Fin C → EReal) (hY : ∀ n j, IsReal (Y n j)) (hD : ∀ n, IsReal (D n)) (hb : ∀ j, IsReal (b j))
    (v : Fin N) (j : Fin C) : IsReal (layerR s dn hit D Y b v j) :=
  ((isReal_zero.add (isReal_sum _ _ fun e _ => (hY (s e) j).mul ((hD (s e)).mul (hD (dn e))))).add (hb j))

/-- The rectifier of a real number is real. -/
theorem isReal_max_zero {x : EReal} (hx : IsReal x) : IsReal (max x 0) := by
  rcases max_choice x 0 with h | h
  · rw [h]; exact hx
  · rw [h]; exact isReal_zero

/-- The network, first arrangement: both rounds scale before and after. -/
def gcnK {K₁ : Nat} (s : Fin E → Fin N) (hit : Fin E → Int) (D : Fin N → EReal) (X : Fin N → Fin K₁ → EReal)
    (W₁ : Fin K₁ → Fin K → EReal) (b₁ : Fin K → EReal) (W₂ : Fin K → Fin C → EReal) (b₂ : Fin C → EReal)
    (v : Fin N) (j : Fin C) : EReal :=
  layerK s hit D (lin (fun n k => max (layerK s hit D (lin X W₁) b₁ n k) 0) W₂) b₂ v j

/-- The network, second arrangement: both rounds scale each message. -/
def gcnR {K₁ : Nat} (s dn : Fin E → Fin N) (hit : Fin E → Int) (D : Fin N → EReal) (X : Fin N → Fin K₁ → EReal)
    (W₁ : Fin K₁ → Fin K → EReal) (b₁ : Fin K → EReal) (W₂ : Fin K → Fin C → EReal) (b₂ : Fin C → EReal)
    (v : Fin N) (j : Fin C) : EReal :=
  layerR s dn hit D (lin (fun n k => max (layerR s dn hit D (lin X W₁) b₁ n k) 0) W₂) b₂ v j

/-- THE TWO NETWORKS AGREE on real inputs. -/
theorem gcn_eq {K₁ : Nat} (s dn : Fin E → Fin N) (hit : Fin E → Int) (D : Fin N → EReal) (X : Fin N → Fin K₁ → EReal)
    (W₁ : Fin K₁ → Fin K → EReal) (b₁ : Fin K → EReal) (W₂ : Fin K → Fin C → EReal) (b₂ : Fin C → EReal)
    (hX : ∀ n k, IsReal (X n k)) (hW₁ : ∀ k j, IsReal (W₁ k j)) (hb₁ : ∀ j, IsReal (b₁ j))
    (hW₂ : ∀ k j, IsReal (W₂ k j)) (hD : ∀ n, IsReal (D n))
    (hdn : ∀ (e : Fin E) (v : Fin N), hit e = (v.val : Int) → dn e = v) (v : Fin N) (j : Fin C) :
    gcnK s hit D X W₁ b₁ W₂ b₂ v j = gcnR s dn hit D X W₁ b₁ W₂ b₂ v j := by
  unfold gcnK gcnR
  have h1 : (fun n k => max (layerK s hit D (lin X W₁) b₁ n k) 0)
      = fun n k => max (layerR s dn hit D (lin X W₁) b₁ n k) 0 :=
    funext fun n => funext fun k => by
      rw [layer_eq s dn hit D (lin X W₁) b₁ (isReal_lin X W₁ hX hW₁) hD hdn n k]
  rw [h1]
  refine layer_eq s dn hit D _ b₂ (isReal_lin _ W₂ (fun n k => isReal_max_zero ?_) hW₂) hD hdn v j
  exact isReal_layerR s dn hit D (lin X W₁) b₁ (isReal_lin X W₁ hX hW₁) hD hb₁ n k

/-- A round's column j reads only column j of the second weight matrix and entry j of the bias: the network over
    some columns (col) of a wider matrix is the network over the matrix of those columns. -/
theorem gcnK_cols {K₁ C' : Nat} (col : Fin C' → Fin C) (s : Fin E → Fin N) (hit : Fin E → Int) (D : Fin N → EReal)
    (X : Fin N → Fin K₁ → EReal) (W₁ : Fin K₁ → Fin K → EReal) (b₁ : Fin K → EReal) (W₂ : Fin K → Fin C → EReal)
    (b₂ : Fin C → EReal) (W₂' : Fin K → Fin C' → EReal) (b₂' : Fin C' → EReal)
    (hW : ∀ k j, W₂ k (col j) = W₂' k j) (hb : ∀ j, b₂ (col j) = b₂' j) (v : Fin N) (j : Fin C') :
    gcnK s hit D X W₁ b₁ W₂ b₂ v (col j) = gcnK s hit D X W₁ b₁ W₂' b₂' v j := by
  unfold gcnK layerK lin
  simp only [hW, hb]

end Cert.Gcn

end
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.GcnData.lean ====
/-
  The graph's data as both programs compute it from the edge array, and the argument arrays read as matrices.

  The edge array has two rows of 800000 numbers: row 0 the node each edge reads (its sender), row 1 the node it lands on (its
  receiver). Both programs append one self-loop per node, 50000 of them, to each row (850000 edges in all), and
  from there on use the rows in three ways, each a fixed function of the edge array alone:
    * a row gather reads the sender's row: a negative number has 50000 added first, and the result is clamped
      into [0, 49999] (sender);
    * the sum over edges lands edge e on the node whose number is the receiver's, read as a signed integer, exactly
      (lands); a number that is no node's drops the edge;
    * the reference gathers the receiver's factor as well, through the same wrap and clamp (receiverRow). On an
      edge that lands on node v the receiver's number is v itself, not negative and in range, so the wrap and the
      clamp leave it alone (receiverRow_of_lands).
  Every node's factor is the inverse square root of its in-degree where that is positive, and 0 elsewhere (dinv).
  These four names are what the two programs' results are stated over; the programs' own buffers for them are the
  values named here (the reference computes the wrapped sender column four times over, once per gather: the same
  function each time).
-/
import proofs.«109774_j31593779429476_2_alg».proof.Proof.RefRead
import proofs.«109774_j31593779429476_2_alg».proof.Proof.LibGatherRows
import proofs.«109774_j31593779429476_2_alg».proof.Proof.GcnSpec

noncomputable section

namespace Cert.Gcn

open Idealize.ShloMosaic Idealize.ShloMosaic.ValueIdx Cert.ReferenceIdeal Cert.ReferenceIdeal.ReadP

/-- The edge array. -/
abbrev Edges : Type := (⟨S2x800000, .i32⟩ : BufTy).Contents (Elt Ideal)

/-- The wrapped sender numbers, one column. -/
abbrev senderCol (x1 : Edges) : S850000x1.Idx → BitVec 32 := val_main_v20 (F := Ideal) x1
/-- The receiver numbers as the sums over edges read them, one column. -/
abbrev landsCol (x1 : Edges) : S850000x1.Idx → BitVec 32 := val_main_v9 (F := Ideal) x1
/-- The wrapped receiver numbers, one column. -/
abbrev receiverCol (x1 : Edges) : S850000x1.Idx → BitVec 32 := val_main_v27 (F := Ideal) x1
/-- Every node's factor, as a vector. -/
abbrev dinvVec (x1 : Edges) : S50000.Idx → EReal := val_main_v14 (F := Ideal) x1

/-- The node edge e reads. -/
def sender (x1 : Edges) (e : Fin 850000) : Fin 50000 :=
  Cert.GatherRows.clampRow 50000 (by decide) (senderCol x1 (ix2 e 0))

/-- The node whose factor the reference gathers for edge e's receiving end. -/
def receiverRow (x1 : Edges) (e : Fin 850000) : Fin 50000 :=
  Cert.GatherRows.clampRow 50000 (by decide) (receiverCol x1 (ix2 e 0))

/-- The number of the node edge e lands on, as a signed integer. -/
def lands (x1 : Edges) (e : Fin 850000) : Int := (landsCol x1 (ix2 e 0)).toInt

/-- Node n's factor. -/
def dinv (x1 : Edges) (n : Fin 50000) : EReal := val_main_v14 (F := Ideal) x1 (ix1 n)

/-- A rank-2 array as a matrix. -/
def mat {A B : Nat} (x : (⟨2, ![A, B]⟩ : Shape).Idx → EReal) : Fin A → Fin B → EReal := fun a b => x (ix2 a b)

/-- A rank-1 array as a vector. -/
def vec {A : Nat} (x : (⟨1, ![A]⟩ : Shape).Idx → EReal) : Fin A → EReal := fun a => x (ix1 a)

/-- Two matrices side by side: columns 0 … 127 from the first, 128 … 255 from the second. -/
def catCols (a b : Fin 256 → Fin 128 → EReal) : Fin 256 → Fin 256 → EReal :=
  fun k j => if h : j.val < 128 then a k ⟨j.val, h⟩ else b k ⟨j.val - 128, by omega⟩

/-- Two vectors end to end. -/
def catVec (a b : Fin 128 → EReal) : Fin 256 → EReal :=
  fun j => if h : j.val < 128 then a ⟨j.val, h⟩ else b ⟨j.val - 128, by omega⟩

/-- Column j of the left half. -/
def colL (j : Fin 128) : Fin 256 := ⟨j.val, by omega⟩
/-- Column j of the right half. -/
def colR (j : Fin 128) : Fin 256 := ⟨128 + j.val, by omega⟩

theorem catCols_colL (a b : Fin 256 → Fin 128 → EReal) (k : Fin 256) (j : Fin 128) : catCols a b k (colL j) = a k j := by
  unfold catCols colL
  rw [dif_pos (show j.val < 128 from j.isLt)]
theorem catCols_colR (a b : Fin 256 → Fin 128 → EReal) (k : Fin 256) (j : Fin 128) : catCols a b k (colR j) = b k j := by
  unfold catCols colR
  rw [dif_neg (show ¬ (128 + j.val < 128) by omega)]
  exact congrArg (b k) (Fin.ext (by show 128 + j.val - 128 = j.val; omega))
theorem catVec_colL (a b : Fin 128 → EReal) (j : Fin 128) : catVec a b (colL j) = a j := by
  unfold catVec colL
  rw [dif_pos (show j.val < 128 from j.isLt)]
theorem catVec_colR (a b : Fin 128 → EReal) (j : Fin 128) : catVec a b (colR j) = b j := by
  unfold catVec colR
  rw [dif_neg (show ¬ (128 + j.val < 128) by omega)]
  exact congrArg b (Fin.ext (by show 128 + j.val - 128 = j.val; omega))

end Cert.Gcn

end
-- ==== Proof.LibScatterRows.lean ====
/-
  An accumulating scatter whose scatter indices are one column of row numbers, read at an index over the extended reals.

  The scatter indices have shape [E, 1]: update row e goes to operand row idx[e, 0], read as a SIGNED integer and
  not clamped; a row number outside [0, N) drops the whole update row. With the exact sum as the combiner, the
  result at (v, k) is the operand's entry plus the sum of upd[e, k] over the update rows e with idx[e, 0] = v
  (rowDims, scatterAdd_rows_apply). The rank-1 form — operand [N], updates [E] — is the same sum without the
  column (vecDims, scatterAdd_vec_apply). Both follow from reading the scatter's result index one axis at a time:
  on the row axis it is the start index, on the column axis the update's own column.
-/
import Idealize.ShloMosaic.PureOps.Ideal
import Idealize.ShloMosaic.Lib.ValueIdx

noncomputable section

open scoped BigOperators

namespace Cert.ScatterRows

open Idealize.ShloMosaic Idealize.ShloMosaic.ValueIdx

/-! ## Rows of width C scattered by one index column -/

/-- The dimension numbers of a row scatter: operand [N, C], scatter indices [E, 1], updates [E, C]; the updates'
    axis 1 is the window axis, the operand's axis 0 is inserted and is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- On the row axis the window starts at the row number the index column holds for the update's row. -/
theorem row_start0 (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the index names nothing: the window starts at column 0. -/
theorem row_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    (show ¬ (1 : Fin 2) ∈ ([0] : List (Fin 2)) by decide))]

/-- The row axis is inserted: no window coordinate on it. -/
theorem row_window0 (j : (⟨2, ![E, C]⟩ : Shape).Idx) : (rowDims N E C wf).window j 0 = 0 := by
  unfold ScatterDims.window
  rw [dif_neg (show ¬ (0 : Fin 2) ∈ (rowDims N E C wf).sKept from
    (show ¬ (0 : Fin 2) ∈ ([1] : List (Fin 2)) by decide))]

/-- On the column axis the window coordinate is the update's own column. -/
theorem row_window1 (j : (⟨2, ![E, C]⟩ : Shape).Idx) : (rowDims N E C wf).window j 1 = (j 1).val := by
  unfold ScatterDims.window
  rw [dif_pos (show (1 : Fin 2) ∈ (rowDims N E C wf).sKept from
    (show (1 : Fin 2) ∈ ([1] : List (Fin 2)) by decide))]
  rfl

/-- WHERE AN UPDATE LANDS: update (e, c) lands on operand (v, k) exactly when the index column holds v at e and c = k. -/
theorem row_lands_iff (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  have hi0 : (i 0).val < N := idx2_lt0 i
  have hi1 : (i 1).val < C := idx2_lt1 i
  have hj1 : (j 1).val < C := idx2_lt1 j
  have hs0 : (⟨2, ![N, C]⟩ : Shape).size 0 = N := rfl
  have hs1 : (⟨2, ![N, C]⟩ : Shape).size 1 = C := rfl
  unfold ScatterDims.resultIdx?
  split
  · rename_i h
    have h0 := h 0
    have h1 := h 1
    rw [row_start0, row_window0] at h0
    rw [row_start1, row_window1] at h1
    rw [Option.some.injEq]
    constructor
    · intro he
      have e0 := congrArg (fun f => (f 0).val) he
      have e1 := congrArg (fun f => (f 1).val) he
      simp only [row_start0, row_window0, row_start1, row_window1] at e0 e1
      constructor <;> omega
    · rintro ⟨e0, e1⟩
      funext a
      refine Fin.ext ?_
      match a with
      | ⟨0, _⟩ =>
        show ((rowDims N E C wf).start j idx 0 + ((rowDims N E C wf).window j 0 : Int)).toNat = (i 0).val
        rw [row_start0, row_window0]; omega
      | ⟨1, _⟩ =>
        show ((rowDims N E C wf).start j idx 1 + ((rowDims N E C wf).window j 1 : Int)).toNat = (i 1).val
        rw [row_start1, row_window1]; omega
  · rename_i h
    constructor
    · intro he; exact absurd he (by simp)
    · rintro ⟨e0, e1⟩
      refine absurd (fun a => ?_) h
      match a with
      | ⟨0, _⟩ =>
        show 0 ≤ (rowDims N E C wf).start j idx 0 + ((rowDims N E C wf).window j 0 : Int) ∧
          (rowDims N E C wf).start j idx 0 + ((rowDims N E C wf).window j 0 : Int) < ((⟨2, ![N, C]⟩ : Shape).size 0 : Int)
        rw [row_start0, row_window0, hs0]; omega
      | ⟨1, _⟩ =>
        show 0 ≤ (rowDims N E C wf).start j idx 1 + ((rowDims N E C wf).window j 1 : Int) ∧
          (rowDims N E C wf).start j idx 1 + ((rowDims N E C wf).window j 1 : Int) < ((⟨2, ![N, C]⟩ : Shape).size 1 : Int)
        rw [row_start1, row_window1, hs1]; omega

/-- THE ROW SCATTER READ AT (v, k): the operand's entry plus the sum of column k of the update rows whose row number is v. -/
theorem scatterAdd_rows_apply (x : (⟨2, ![N, C]⟩ : Shape).Idx → EReal) (idx : IVec ⟨2, ![E, 1]⟩ w)
    (upd : (⟨2, ![E, C]⟩ : Shape).Idx → EReal) (v : Fin N) (k : Fin C) :
    Ideal.hostScatterAdd (rowDims N E C wf) x idx upd (ix2 v k) =
      x (ix2 v k) + ∑ e ∈ Finset.univ.filter (fun e : Fin E => (idx (ix2 e 0)).toInt = (v.val : Int)), upd (ix2 e k) := by
  unfold Ideal.hostScatterAdd
  congr 1
  rw [Finset.sum_filter, sum_idx2, Finset.sum_filter]
  refine Finset.sum_congr rfl fun e _ => ?_
  simp only [row_lands_iff]
  by_cases he : (idx (ix2 e 0)).toInt = (v.val : Int)
  · rw [if_pos he]
    rw [Finset.sum_eq_single k]
    · rw [if_pos ⟨he, rfl⟩]
    · intro b _ hb
      rw [if_neg]
      rintro ⟨_, h1⟩
      exact hb (Fin.ext h1)
    · intro h; exact absurd (Finset.mem_univ k) h
  · rw [if_neg he]
    refine Finset.sum_eq_zero fun b _ => ?_
    rw [if_neg]
    rintro ⟨h0, _⟩
    exact he h0

/-- The same for ANY dimension numbers of a row scatter (a program's own record: its four fields are these by
    unfolding), stated for the host operation at the extended reals. -/
theorem host_scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (v : Fin N) (k : Fin C) :
    Host.scatterAdd d x idx upd (ix2 v k) =
      x (ix2 v k) + ∑ e ∈ Finset.univ.filter (fun e : Fin E => (idx (ix2 e 0)).toInt = (v.val : Int)), upd (ix2 e k) := by
  obtain ⟨uw, iw, sd, iv, wf⟩ := d
  dsimp only at h1 h2 h3 h4
  subst h1 h2 h3 h4
  unfold Host.scatterAdd
  rw [Ideal.hostScatterAdd_def]
  exact scatterAdd_rows_apply wf x idx upd v k

end Rows

/-! ## Scalars scattered by one index column -/

/-- The dimension numbers of the rank-1 form: operand [N], scatter indices [E, 1], updates [E]; no window axis. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

theorem vec_start0 (j : (⟨1, ![E]⟩ : Shape).Idx) (idx : IVec ⟨2, ![E, 1]⟩ w) :
    (vecDims N E wf).start j idx 0 = (idx (ix2 (j 0) 0)).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem vec_window0 (j : (⟨1, ![E]⟩ : Shape).Idx) : (vecDims N E wf).window j 0 = 0 := by
  unfold ScatterDims.window
  rw [dif_neg (show ¬ (0 : Fin 1) ∈ (vecDims N E wf).sKept from
    (show ¬ (0 : Fin 1) ∈ ([] : List (Fin 1)) by decide))]

/-- WHERE AN UPDATE LANDS: update e lands on operand v exactly when the index column holds v at e. -/
theorem vec_lands_iff (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  have hi0 : (i 0).val < N := (i 0).isLt
  have hs0 : (⟨1, ![N]⟩ : Shape).size 0 = N := rfl
  unfold ScatterDims.resultIdx?
  split
  · rename_i h
    have h0 := h 0
    rw [vec_start0, vec_window0] at h0
    rw [Option.some.injEq]
    constructor
    · intro he
      have e0 := congrArg (fun f => (f 0).val) he
      simp only [vec_start0, vec_window0] at e0
      omega
    · intro e0
      funext a
      refine Fin.ext ?_
      match a with
      | ⟨0, _⟩ =>
        show ((vecDims N E wf).start j idx 0 + ((vecDims N E wf).window j 0 : Int)).toNat = (i 0).val
        rw [vec_start0, vec_window0]; omega
  · rename_i h
    constructor
    · intro he; exact absurd he (by simp)
    · intro e0
      refine absurd (fun a => ?_) h
      match a with
      | ⟨0, _⟩ =>
        show 0 ≤ (vecDims N E wf).start j idx 0 + ((vecDims N E wf).window j 0 : Int) ∧
          (vecDims N E wf).start j idx 0 + ((vecDims N E wf).window j 0 : Int) < ((⟨1, ![N]⟩ : Shape).size 0 : Int)
        rw [vec_start0, vec_window0, hs0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE RANK-1 SCATTER READ AT v: the operand's entry plus the sum of the updates whose row number is v. -/
theorem scatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v) =
      x (ix1 v) + ∑ e ∈ Finset.univ.filter (fun e : Fin E => (idx (ix2 e 0)).toInt = (v.val : Int)), upd (ix1 e) := by
  unfold Ideal.hostScatterAdd
  congr 1
  rw [Finset.sum_filter, Finset.sum_filter, ← Equiv.sum_comp (idxEquiv1 (n := E)).symm]
  refine Finset.sum_congr rfl fun e _ => ?_
  simp only [vec_lands_iff]
  rfl

/-- The same for ANY dimension numbers of the rank-1 form, stated for the host operation at the extended reals. -/
theorem host_scatterAdd_vec_apply {φ : FTy} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![E, 1]⟩ w)
    (upd : FVec Ideal ⟨1, ![E]⟩ φ) (v : Fin N) :
    Host.scatterAdd d x idx upd (ix1 v) =
      x (ix1 v) + ∑ e ∈ Finset.univ.filter (fun e : Fin E => (idx (ix2 e 0)).toInt = (v.val : Int)), upd (ix1 e) := by
  obtain ⟨uw, iw, sd, iv, wf⟩ := d
  dsimp only at h1 h2 h3 h4
  subst h1 h2 h3 h4
  unfold Host.scatterAdd
  rw [Ideal.hostScatterAdd_def]
  exact scatterAdd_vec_apply wf x idx upd v

end Vec

end Cert.ScatterRows

end
-- ==== Proof.RefIndex.lean ====
/-
  Two facts about the graph's data that the agreement of the two arrangements asks for.

  The receiver's number is used twice by the reference: raw, as a signed integer, by the sums over edges (an edge whose
  number is no node's lands nowhere), and wrapped (a negative number has 50000 added) and clamped by the gather of
  the receiver's factor. On an edge that lands on node v the number is v itself: it is not negative, so the
  comparison with 0 fails and the selection keeps the number as it is, and it is below 50000, so the clamp keeps it
  too (receiverRow_of_lands).

  A node's in-degree is a sum of ones, one per edge landing on it, starting from zero: a real number. Its factor is
  the inverse square root of the in-degree where that is positive — the inverse square root of a positive real is
  real — and 0 elsewhere (isReal_dinv).
-/
import proofs.«109774_j31593779429476_2_alg».proof.Proof.GcnData
import proofs.«109774_j31593779429476_2_alg».proof.Proof.LibScatterRows

noncomputable section

open scoped BigOperators

namespace Cert.Gcn.Ref

open Idealize.ShloMosaic Idealize.ShloMosaic.ValueIdx Cert.Gcn Cert.ReferenceIdeal Cert.ReferenceIdeal.ReadP Cert.RealSums

/-! ## A column [850000, 1] read at (e, 0) is the vector read at e -/

/-- The column broadcasts read row e of their operand: all of them are this one index function at (e, 0). -/
theorem colIdx (e : Fin 850000) :
    (fun a => match a with | ⟨0, _⟩ => ⟨((ix2 e (0 : Fin 1) : S850000x1.Idx) 0).val, ((ix2 e (0 : Fin 1) : S850000x1.Idx) 0).isLt⟩ : S850000.Idx)
      = ix1 e :=
  funext fun a => Fin.ext (by match a with | ⟨0, _⟩ => rfl)

theorem landsCol_apply (x1 : Edges) (e : Fin 850000) : landsCol x1 (ix2 e 0) = val_main_v6 (F := Ideal) x1 (ix1 e) := by
  show val_main_v9 (F := Ideal) x1 (ix2 e 0) = _
  rw [val_main_v9_apply]
  exact congrArg (val_main_v6 (F := Ideal) x1) (colIdx e)

theorem receiverCol_apply (x1 : Edges) (e : Fin 850000) :
    receiverCol x1 (ix2 e 0) = val_main_v26 (F := Ideal) x1 (ix1 e) := by
  show val_main_v27 (F := Ideal) x1 (ix2 e 0) = _
  rw [val_main_v27_apply]
  exact congrArg (val_main_v26 (F := Ideal) x1) (colIdx e)

/-! ## The wrap leaves a number that is not negative alone -/

/-- A signed comparison with 0 fails on a number whose signed reading is not negative. -/
theorem slt_zero_of_nonneg (b : BitVec 32) (h : 0 ≤ b.toInt) : IntOp.cmpi .slt b 0#32 = 0#1 := by
  have h0 : b.slt 0#32 = false := by
    rw [BitVec.slt_eq_decide]
    exact decide_eq_false (by rw [BitVec.toInt_zero]; omega)
  show BitVec.ofBool (b.slt 0#32) = 0#1
  rw [h0]
  rfl

/-- The wrapped receiver number at an edge, from the raw one b: b + 50000 if b is negative, else b. -/
theorem wrapped_apply (x1 : Edges) (e : Fin 850000) :
    val_main_v26 (F := Ideal) x1 (ix1 e)
      = Scalar.select (IntOp.cmpi .slt (val_main_v6 (F := Ideal) x1 (ix1 e)) 0#32)
          (val_main_v25 (F := Ideal) x1 (ix1 e)) (val_main_v6 (F := Ideal) x1 (ix1 e)) := by
  rw [val_main_v26_apply, val_main_v23_apply, val_main_v22_apply, val_main_c_4_apply]

theorem receiverRow_of_lands (x1 : Edges) (e : Fin 850000) (v : Fin 50000) (h : lands x1 e = (v.val : Int)) :
    receiverRow x1 e = v := by
  unfold lands at h
  rw [landsCol_apply] at h
  unfold receiverRow
  rw [receiverCol_apply, wrapped_apply]
  generalize val_main_v25 (F := Ideal) x1 (ix1 e) = c
  generalize val_main_v6 (F := Ideal) x1 (ix1 e) = b at h ⊢
  rw [slt_zero_of_nonneg b (by rw [h]; exact Int.natCast_nonneg _), select_zero]
  exact Cert.GatherRows.clampRow_of_toInt 50000 (by decide) b v h

/-! ## Every node's factor is real -/

/-- The word of 1. -/
theorem ofBits_one_f32 : Ideal.ofBits .f32 0x3F800000#32 = 1 := by
  simp [Ideal.ofBits, Ideal.ieee, -EReal.coe_mul]; norm_num

/-- The in-degree of node n: 0 plus a one for every edge landing on n. -/
theorem deg_apply (x1 : Edges) (n : Fin 50000) :
    val_main_v10 (F := Ideal) x1 (ix1 n)
      = 0 + ∑ e ∈ Finset.univ.filter (fun e : Fin 850000 => lands x1 e = (n.val : Int)), (1 : EReal) := by
  unfold val_main_v10
  generalize hidx : val_main_v9 (F := Ideal) x1 = idx
  refine (Cert.ScatterRows.host_scatterAdd_vec_apply (φ := .f32) scatter_S50000_S850000x1_S850000_n_0_0_1 rfl rfl rfl rfl
    (val_main_v8 (F := Ideal)) idx (val_main_v7 (F := Ideal)) n).trans ?_
  subst hidx
  rw [val_main_v8_apply, val_main_cst_0_apply]
  refine congrArg₂ (· + ·) Ideal.ofBits_zero_f32 ?_
  refine Finset.sum_congr rfl fun e _ => ?_
  rw [val_main_v7_apply, val_main_cst_apply]
  exact ofBits_one_f32

theorem isReal_deg (x1 : Edges) (n : Fin 50000) : IsReal (val_main_v10 (F := Ideal) x1 (ix1 n)) := by
  rw [deg_apply]
  exact isReal_zero.add (isReal_sum _ _ fun _ _ => isReal_one)

/-- The inverse square root of a positive real is real. -/
theorem isReal_rsqrt_of_pos {x : EReal} (hx : IsReal x) (hpos : 0 < x) : IsReal (Ideal.rsqrt x) := by
  obtain ⟨r, rfl⟩ := hx
  have hr : 0 < r := EReal.coe_pos.mp hpos
  rw [Ideal.rsqrt_coe, if_neg (not_lt.mpr hr.le), if_neg hr.ne']
  exact isReal_coe _

/-- A comparison "greater than 0" that holds says the number is positive. -/
theorem pos_of_cmp_ogt_zero {d : EReal} (h : Ideal.cmp .ogt d 0 = 1#1) : 0 < d := by
  unfold Ideal.cmp at h
  by_contra hn
  simp [hn] at h

theorem isReal_dinv (x1 : Edges) (n : Fin 50000) : IsReal (dinv x1 n) := by
  unfold dinv
  rw [val_main_v14_apply, val_main_v12_apply, val_main_v13_apply, val_main_v11_apply, val_main_cst_1_apply,
    val_main_call0_v1_apply, val_main_call0_v0_apply, val_main_cst_2_apply, Ideal.cmpf_def, Ideal.hostUnary_rsqrt_def,
    Ideal.ofBits_def, Ideal.ofBits_zero_f32]
  have hd := isReal_deg x1 n
  generalize val_main_v10 (F := Ideal) x1 (ix1 n) = d at hd ⊢
  unfold Scalar.select
  split
  · rename_i hc
    exact isReal_rsqrt_of_pos hd (pos_of_cmp_ogt_zero hc)
  · exact isReal_zero

end Cert.Gcn.Ref

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.RefValue.lean ====
/-
  The reference's two results, read entry by entry, are the network in its second arrangement.

  One round of the reference, for a feature matrix Y = H · W with C columns:
    * the rows of Y are gathered by the wrapped sender column: message row e is row (sender e) of Y;
    * every message row is scaled by norm e = dinv (sender e) · dinv (receiverRow e), a vector over the edges that is
      broadcast along the columns; the two factors are gathers of the factor vector by the wrapped sender column
      and by the wrapped receiver column;
    * the scaled rows are summed into a zero array by the raw receiver column: entry (v, j) is 0 plus the sum, over
      the edges e whose receiver number is v, of entry (e, j);
    * the bias, broadcast along the rows, is added.
  That is layerR entry by entry. The first round is followed by a maximum with 0; the second round is computed twice,
  once per pair of weights, by the same operations: the two results are one function of their weights.

  The reference wraps the sender numbers once per gather (four times) and broadcasts the raw receiver numbers to a
  column once per sum (four times); each time it is the same function of the edge array.
-/
import proofs.«109774_j31593779429476_2_alg».proof.Proof.GcnData
import proofs.«109774_j31593779429476_2_alg».proof.Proof.LibScatterRows
import proofs.«109774_j31593779429476_2_alg».proof.Proof.LibPlainDot

noncomputable section

open scoped BigOperators

namespace Cert.Gcn.Ref

open Idealize.ShloMosaic Idealize.ShloMosaic.ValueIdx Cert.Gcn Cert.ReferenceIdeal Cert.ReferenceIdeal.ReadP

variable (x0 : (⟨S50000x256, .f32⟩ : BufTy).Contents (Elt Ideal)) (x1 : Edges)
  (x2 : (⟨S256x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))

/-! ## The columns computed more than once -/

/-- The wrapped sender column of the first round's gather is the one the factor's gather uses. -/
theorem senderCol_round1 : val_main_v36 (F := Ideal) x1 = senderCol x1 := rfl
/-- The wrapped sender column of the second round's gather likewise. -/
theorem senderCol_round2 : val_main_v54 (F := Ideal) x1 = senderCol x1 := rfl
/-- The raw receiver column of the first round's sum is the one the in-degree's sum uses. -/
theorem landsCol_round1 : val_main_v42 (F := Ideal) x1 = landsCol x1 := rfl
/-- The raw receiver column of the second round's sum likewise. -/
theorem landsCol_round2 : val_main_v60 (F := Ideal) x1 = landsCol x1 := rfl

/-! ## The scale of a message: the product of its two ends' factors -/

/-- The factor gathered by the wrapped sender column: the sender's. -/
theorem senderFactor_apply (e : Fin 850000) : val_main_v21 (F := Ideal) x1 (ix1 e) = dinv x1 (sender x1 e) := by
  unfold val_main_v21
  generalize hD : val_main_v14 (F := Ideal) x1 = D
  generalize hc : val_main_v20 (F := Ideal) x1 = c
  refine (Cert.GatherRows.host_gather_vec_apply (N := 50000) (E := 850000) (by decide)
    gather_S50000_S850000x1_S850000_n_0_n_n_0_1_1 rfl rfl rfl rfl rfl rfl rfl D c e).trans ?_
  subst hD hc
  rfl

/-- The factor gathered by the wrapped receiver column: the receiving end's. -/
theorem receiverFactor_apply (e : Fin 850000) : val_main_v28 (F := Ideal) x1 (ix1 e) = dinv x1 (receiverRow x1 e) := by
  unfold val_main_v28
  generalize hD : val_main_v14 (F := Ideal) x1 = D
  generalize hc : val_main_v27 (F := Ideal) x1 = c
  refine (Cert.GatherRows.host_gather_vec_apply (N := 50000) (E := 850000) (by decide)
    gather_S50000_S850000x1_S850000_n_0_n_n_0_1_1 rfl rfl rfl rfl rfl rfl rfl D c e).trans ?_
  subst hD hc
  rfl

theorem norm_apply (e : Fin 850000) :
    val_main_v29 (F := Ideal) x1 (ix1 e) = dinv x1 (sender x1 e) * dinv x1 (receiverRow x1 e) := by
  rw [val_main_v29_apply, Ideal.mulf_def, senderFactor_apply, receiverFactor_apply]

/-- The scale broadcast along 256 columns. -/
theorem norm256_apply (e : Fin 850000) (k : Fin 256) :
    val_main_v39 (F := Ideal) x1 (ix2 e k) = dinv x1 (sender x1 e) * dinv x1 (receiverRow x1 e) := by
  rw [val_main_v39_apply, val_main_v38_apply, ← norm_apply]
  exact congrArg (val_main_v29 (F := Ideal) x1) (funext fun a => Fin.ext (by match a with | ⟨0, _⟩ => rfl))

/-- The scale broadcast along 128 columns. -/
theorem norm128_apply (e : Fin 850000) (k : Fin 128) :
    val_main_v57 (F := Ideal) x1 (ix2 e k) = dinv x1 (sender x1 e) * dinv x1 (receiverRow x1 e) := by
  rw [val_main_v57_apply, val_main_v56_apply, ← norm_apply]
  exact congrArg (val_main_v29 (F := Ideal) x1) (funext fun a => Fin.ext (by match a with | ⟨0, _⟩ => rfl))

/-! ## The first round -/

/-- The first product: row p of the features against column q of the first weights. -/
theorem lin1_apply (p : Fin 50000) (q : Fin 256) :
    val_main_v30 (F := Ideal) x0 x2 (ix2 p q) = lin (mat x0) (mat x2) p q :=
  Cert.PlainDot.dotGeneral_apply dot_S50000x256_S256x256_S50000x256_1_0_0_1_n_n rfl rfl rfl rfl rfl rfl none .single x0 x2 p q

/-- Message row e of the first round: the sender's row of the product. -/
theorem gathered1_apply (e : Fin 850000) (k : Fin 256) :
    val_main_v37 (F := Ideal) x0 x1 x2 (ix2 e k) = lin (mat x0) (mat x2) (sender x1 e) k := by
  unfold val_main_v37
  rw [senderCol_round1, ← lin1_apply]
  generalize val_main_v30 (F := Ideal) x0 x2 = Y
  generalize hc : senderCol x1 = c
  refine (Cert.GatherRows.host_gather_rows_apply (N := 50000) (E := 850000) (C := 256) (by decide)
    gather_S50000x256_S850000x1_S850000x256_1_0_n_n_0_1_1256 rfl rfl rfl rfl rfl rfl rfl Y c e k).trans ?_
  subst hc
  rfl

theorem message1_apply (e : Fin 850000) (k : Fin 256) :
    val_main_v40 (F := Ideal) x0 x1 x2 (ix2 e k)
      = lin (mat x0) (mat x2) (sender x1 e) k * (dinv x1 (sender x1 e) * dinv x1 (receiverRow x1 e)) := by
  rw [val_main_v40_apply, Ideal.mulf_def, gathered1_apply, norm256_apply]

/-- The first round's sum over edges at (n, k). -/
theorem summed1_apply (n : Fin 50000) (k : Fin 256) :
    val_main_v43 (F := Ideal) x0 x1 x2 (ix2 n k)
      = 0 + ∑ e ∈ into (lands x1) n,
          lin (mat x0) (mat x2) (sender x1 e) k * (dinv x1 (sender x1 e) * dinv x1 (receiverRow x1 e)) := by
  unfold val_main_v43
  rw [landsCol_round1]
  generalize hu : val_main_v40 (F := Ideal) x0 x1 x2 = upd
  generalize hc : landsCol x1 = c
  refine (Cert.ScatterRows.host_scatterAdd_rows_apply (φ := .f32) scatter_S50000x256_S850000x1_S850000x256_1_0_0_1
    rfl rfl rfl rfl (val_main_v41 (F := Ideal)) c upd n k).trans ?_
  subst hu hc
  rw [val_main_v41_apply, val_main_cst_8_apply]
  refine congrArg₂ (· + ·) Ideal.ofBits_zero_f32 ?_
  exact Finset.sum_congr rfl fun e _ => message1_apply x0 x1 x2 e k

/-- The first bias broadcast along the rows. -/
theorem bias1_apply (n : Fin 50000) (k : Fin 256) : val_main_v45 (F := Ideal) x3 (ix2 n k) = vec x3 k := by
  rw [val_main_v45_apply, val_main_v44_apply]
  exact congrArg x3 (funext fun a => Fin.ext (by match a with | ⟨0, _⟩ => rfl))

/-- THE FIRST ROUND with its rectifier, as a matrix. -/
theorem hidden_eq :
    (fun (n : Fin 50000) (k : Fin 256) => val_main_v47 (F := Ideal) x0 x1 x2 x3 (ix2 n k))
      = fun n k => max (layerR (sender x1) (receiverRow x1) (lands x1) (dinv x1) (lin (mat x0) (mat x2)) (vec x3) n k) 0 := by
  funext n k
  rw [val_main_v47_apply, Ideal.maximumf_def, val_main_v46_apply, Ideal.addf_def, summed1_apply, bias1_apply,
    val_main_call1_v0_apply, val_main_call1_cst_apply, Ideal.ofBits_def, Ideal.ofBits_zero_f32]
  rfl

/-! ## The second round, for one pair of weights -/

/-- The second product: row p of the hidden matrix against column q of the second weights. -/
theorem lin2_apply (p : Fin 50000) (q : Fin 128) :
    val_main_v48 (F := Ideal) x0 x1 x2 x3 x4 (ix2 p q)
      = lin (fun n k => val_main_v47 (F := Ideal) x0 x1 x2 x3 (ix2 n k)) (mat x4) p q := by
  unfold val_main_v48
  generalize val_main_v47 (F := Ideal) x0 x1 x2 x3 = H
  exact Cert.PlainDot.dotGeneral_apply dot_S50000x256_S256x128_S50000x128_1_0_0_1_n_n rfl rfl rfl rfl rfl rfl none .single H x4 p q

theorem gathered2_apply (e : Fin 850000) (k : Fin 128) :
    val_main_v55 (F := Ideal) x0 x1 x2 x3 x4 (ix2 e k)
      = lin (fun n k => val_main_v47 (F := Ideal) x0 x1 x2 x3 (ix2 n k)) (mat x4) (sender x1 e) k := by
  unfold val_main_v55
  rw [senderCol_round2, ← lin2_apply]
  generalize val_main_v48 (F := Ideal) x0 x1 x2 x3 x4 = Y
  generalize hc : senderCol x1 = c
  refine (Cert.GatherRows.host_gather_rows_apply (N := 50000) (E := 850000) (C := 128) (by decide)
    gather_S50000x128_S850000x1_S850000x128_1_0_n_n_0_1_1128 rfl rfl rfl rfl rfl rfl rfl Y c e k).trans ?_
  subst hc
  rfl

theorem message2_apply (e : Fin 850000) (k : Fin 128) :
    val_main_v58 (F := Ideal) x0 x1 x2 x3 x4 (ix2 e k)
      = lin (fun n k => val_main_v47 (F := Ideal) x0 x1 x2 x3 (ix2 n k)) (mat x4) (sender x1 e) k
          * (dinv x1 (sender x1 e) * dinv x1 (receiverRow x1 e)) := by
  rw [val_main_v58_apply, Ideal.mulf_def, gathered2_apply, norm128_apply]

theorem summed2_apply (n : Fin 50000) (k : Fin 128) :
    val_main_v61 (F := Ideal) x0 x1 x2 x3 x4 (ix2 n k)
      = 0 + ∑ e ∈ into (lands x1) n,
          lin (fun n k => val_main_v47 (F := Ideal) x0 x1 x2 x3 (ix2 n k)) (mat x4) (sender x1 e) k
            * (dinv x1 (sender x1 e) * dinv x1 (receiverRow x1 e)) := by
  unfold val_main_v61
  rw [landsCol_round2]
  generalize hu : val_main_v58 (F := Ideal) x0 x1 x2 x3 x4 = upd
  generalize hc : landsCol x1 = c
  refine (Cert.ScatterRows.host_scatterAdd_rows_apply (φ := .f32) scatter_S50000x128_S850000x1_S850000x128_1_0_0_1
    rfl rfl rfl rfl (val_main_v59 (F := Ideal)) c upd n k).trans ?_
  subst hu hc
  rw [val_main_v59_apply, val_main_cst_11_apply]
  refine congrArg₂ (· + ·) Ideal.ofBits_zero_f32 ?_
  exact Finset.sum_congr rfl fun e _ => message2_apply x0 x1 x2 x3 x4 e k

theorem bias2_apply (n : Fin 50000) (k : Fin 128) : val_main_v63 (F := Ideal) x5 (ix2 n k) = vec x5 k := by
  rw [val_main_v63_apply, val_main_v62_apply]
  exact congrArg x5 (funext fun a => Fin.ext (by match a with | ⟨0, _⟩ => rfl))

/-- THE FIRST RESULT. -/
theorem ref_mu (x0 : (⟨S50000x256, .f32⟩ : BufTy).Contents (Elt Ideal)) (x1 : Edges)
    (x2 : (⟨S256x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (v : Fin 50000) (j : Fin 128) :
    val_main_v64 (F := Ideal) x0 x1 x2 x3 x4 x5 (ix2 v j)
      = gcnR (sender x1) (receiverRow x1) (lands x1) (dinv x1) (mat x0) (mat x2) (vec x3) (mat x4) (vec x5) v j := by
  rw [val_main_v64_apply, Ideal.addf_def, summed2_apply, bias2_apply, hidden_eq]
  rfl

/-! ## The second result: the same round at the other pair of weights -/

section SecondHead
variable (x6 : (⟨S256x128, .f32⟩ : BufTy).Contents (Elt Ideal)) (x7 : (⟨S128, .f32⟩ : BufTy).Contents (Elt Ideal))

/-- The second head's product is the first head's at its own weights. -/
theorem lin2'_eq : val_main_v65 (F := Ideal) x0 x1 x2 x3 x6 = val_main_v48 (F := Ideal) x0 x1 x2 x3 x6 := rfl

/-- Its wrapped sender column is the same function of the edge array. -/
theorem senderCol_round2' : val_main_v71 (F := Ideal) x1 = val_main_v54 (F := Ideal) x1 := rfl

theorem gathered2'_eq : val_main_v72 (F := Ideal) x0 x1 x2 x3 x6 = val_main_v55 (F := Ideal) x0 x1 x2 x3 x6 := by
  unfold val_main_v72 val_main_v55
  rw [lin2'_eq, senderCol_round2']

/-- Its scale, broadcast along the columns, is the same array. -/
theorem norm128'_eq : val_main_v74 (F := Ideal) x1 = val_main_v57 (F := Ideal) x1 := rfl

theorem message2'_eq : val_main_v75 (F := Ideal) x0 x1 x2 x3 x6 = val_main_v58 (F := Ideal) x0 x1 x2 x3 x6 := by
  unfold val_main_v75 val_main_v58
  rw [gathered2'_eq, norm128'_eq]

/-- Its zero array and its raw receiver column are the same arrays. -/
theorem zeros2'_eq : val_main_v76 (F := Ideal) = val_main_v59 (F := Ideal) := rfl
theorem landsCol_round2' : val_main_v77 (F := Ideal) x1 = val_main_v60 (F := Ideal) x1 := rfl

theorem summed2'_eq : val_main_v78 (F := Ideal) x0 x1 x2 x3 x6 = val_main_v61 (F := Ideal) x0 x1 x2 x3 x6 := by
  unfold val_main_v78 val_main_v61
  rw [message2'_eq, zeros2'_eq, landsCol_round2']

/-- Its bias is broadcast by the same two operations. -/
theorem bias2'_eq : val_main_v80 (F := Ideal) x7 = val_main_v63 (F := Ideal) x7 := rfl

/-- THE TWO RESULTS ARE ONE FUNCTION of the second round's weights and bias. -/
theorem second_head_eq :
    val_main_v81 (F := Ideal) x0 x1 x2 x3 x6 x7 = val_main_v64 (F := Ideal) x0 x1 x2 x3 x6 x7 := by
  unfold val_main_v81 val_main_v64
  rw [summed2'_eq, bias2'_eq]

end SecondHead

/-- THE SECOND RESULT. -/
theorem ref_ls (x0 : (⟨S50000x256, .f32⟩ : BufTy).Contents (Elt Ideal)) (x1 : Edges)
    (x2 : (⟨S256x256, .f32⟩ : BufTy).Contents (Elt Ideal)) (x3 : (⟨S256, .f32⟩ : BufTy).Contents (Elt Ideal))
    (x6 : (⟨S256x128, .f32⟩ : BufTy).Contents (Elt Ideal)) (x7 : (⟨S128, .f32⟩ : BufTy).Contents (Elt Ideal))
    (v : Fin 50000) (j : Fin 128) :
    val_main_v81 (F := Ideal) x0 x1 x2 x3 x6 x7 (ix2 v j)
      = gcnR (sender x1) (receiverRow x1) (lands x1) (dinv x1) (mat x0) (mat x2) (vec x3) (mat x6) (vec x7) v j := by
  rw [second_head_eq]
  exact ref_mu x0 x1 x2 x3 x6 x7 v j

end Cert.Gcn.Ref

end
-- ==== Proof.KernelRun.lean ====
/-
  The idealized kernel's run, with its two results read.

  @main is ten segments: six stretches of host operations and four grid regions. The buffer contents at each
  boundary are a fold from the launch memory (W0 … W10 of the generated frame module: a stretch applies its
  operations in order; a region replaces its output array by what its grid points wrote back and keeps every other
  buffer). Every weakly fair execution terminates without a fault in a state where each buffer that outlives the
  regions holds the last boundary's contents W10; here that is read at the two result buffers as well as at the
  eight argument arrays, which end as launched.
-/
import proofs.«109774_j31593779429476_2_alg».proof.Proof.Gen.KernelIdeal.Frame

set_option maxRecDepth 16384

noncomputable section

namespace Cert.Gcn.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of @main terminates, nothing faulting, with the
    two results at the last boundary's contents and the arguments as launched. -/
theorem run_results : θ_run defs (onTc (τ := τ) (main (F := F))) ⟨m, fun _ => 0, ρ⟩ (fun r => ∀ c : Dev nD,
      r.2.mem ((c.tc : Thread nD τ).loc main_v49) = W10 m ρ c (Proc.devRef .tc main_v49)
      ∧ r.2.mem ((c.tc : Thread nD τ).loc main_v50) = W10 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v49 (by decide)),
       h c _ (mem_uc main_v50 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.Gcn.Kernel

end
-- ==== Proof.KernelEntry.lean ====
/-
  The idealized kernel's buffers when its first grid region is entered, as functions of the argument arrays.

  Before the first region the host computes, from the edge array alone: the sender and receiver rows with the self-loops
  appended (v3, v6), the in-degree of every node (a sum of ones over the edges landing on it), and from it every node's
  factor, the inverse square root of the degree where that is positive and 0 elsewhere (v14), recast as one column
  (v15). It also recasts the feature matrix and the first weight matrix (v16, v17: the change of float format is the
  identity on extended reals), joins the two second-round weight matrices side by side (v18, v19) and the two
  second-round biases end to end (v20). The contents at the region's entry are the fold of these twenty-seven
  operations over the launch memory: a buffer one of them writes is that operation applied to the contents before it,
  any other buffer is what it was. The factor, the sender row and the receiver row are the reference program's own
  stages: both programs apply the same operations to the edge array.
-/
import proofs.«109774_j31593779429476_2_alg».proof.Proof.Gen.KernelIdeal.Frame
import proofs.«109774_j31593779429476_2_alg».proof.Proof.GcnData
import Idealize.ShloMosaic.Lib.StableHlo.Run

set_option maxRecDepth 16384

noncomputable section

namespace Cert.Gcn.Kernel

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The argument arrays -/

abbrev arg0 (c : Dev nD) : S50000x256.Idx → EReal := m ((c.tc : Thread nD τ).loc main_arg0)
abbrev arg2 (c : Dev nD) : S256x256.Idx → EReal := m ((c.tc : Thread nD τ).loc main_arg2)
abbrev arg3 (c : Dev nD) : S256.Idx → EReal := m ((c.tc : Thread nD τ).loc main_arg3)
abbrev arg4 (c : Dev nD) : S256x128.Idx → EReal := m ((c.tc : Thread nD τ).loc main_arg4)
abbrev arg5 (c : Dev nD) : S128.Idx → EReal := m ((c.tc : Thread nD τ).loc main_arg5)
abbrev arg6 (c : Dev nD) : S256x128.Idx → EReal := m ((c.tc : Thread nD τ).loc main_arg6)
abbrev arg7 (c : Dev nD) : S128.Idx → EReal := m ((c.tc : Thread nD τ).loc main_arg7)
/-- The edge array. -/
abbrev edges (c : Dev nD) : Cert.Gcn.Edges := m ((c.tc : Thread nD τ).loc main_arg1)

/-! ## The first region's entry -/

/-! The factor is read in two steps: after the first stretch, the degree's comparison with zero, its inverse square root
    and the zero constant (the reference's stages, by unfolding); then the selection between them, recast as a column. -/

set_option maxHeartbeats 4000000 in
theorem W1_v12 (c : Dev nD) : (W1 m ρ c (Proc.devRef .tc main_v12) : S50000.Idx → BitVec 1)
    = Cert.ReferenceIdeal.ReadP.val_main_v12 (F := Ideal) (edges m c) := by
  show StableHlo.after hostOps0 (W0 m ρ c) (Proc.devRef .tc main_v12) = _
  dsimp only [hostOps0]
  after_results_simp
  all_goals rfl

set_option maxHeartbeats 4000000 in
theorem W1_v13 (c : Dev nD) : (W1 m ρ c (Proc.devRef .tc main_v13) : S50000.Idx → EReal)
    = Cert.ReferenceIdeal.ReadP.val_main_v13 (F := Ideal) (edges m c) := by
  show StableHlo.after hostOps0 (W0 m ρ c) (Proc.devRef .tc main_v13) = _
  dsimp only [hostOps0]
  after_results_simp
  all_goals rfl

set_option maxHeartbeats 4000000 in
theorem W1_cst_2 (c : Dev nD) : (W1 m ρ c (Proc.devRef .tc main_cst_2) : S_.Idx → EReal)
    = Cert.ReferenceIdeal.ReadP.val_main_cst_2 (F := Ideal) := by
  show StableHlo.after hostOps0 (W0 m ρ c) (Proc.devRef .tc main_cst_2) = _
  dsimp only [hostOps0]
  after_results_simp
  all_goals rfl

set_option maxHeartbeats 1000000 in
/-- The second stretch selects, node by node, between the inverse square root and the zero constant by the comparison
    bit, whatever the contents V₁ it starts from (the three operands are read off V₁ as they are). -/
theorem where_stretch (V₁ : Valuation τ sig (Elt Ideal)) :
    (StableHlo.after hostOps0_1 V₁ (Proc.devRef .tc main_v14) : S50000.Idx → EReal)
      = select (V₁ (Proc.devRef .tc main_v12) : S50000.Idx → BitVec 1) (V₁ (Proc.devRef .tc main_v13) : S50000.Idx → EReal)
          (broadcastInDim S50000 ![] bcast_S_S50000 (id (V₁ (Proc.devRef .tc main_cst_2) : S_.Idx → EReal))) := by
  dsimp only [hostOps0_1]
  after_results_simp
  all_goals rfl

/-- The factor after the second stretch is the reference's stage of the same name: the same selection of the same
    three stages. -/
theorem W2_v14 (c : Dev nD) : (W2 m ρ c (Proc.devRef .tc main_v14) : S50000.Idx → EReal)
    = Cert.ReferenceIdeal.ReadP.val_main_v14 (F := Ideal) (edges m c) := by
  refine (where_stretch (W1 m ρ c)).trans ?_
  rw [W1_v12 m ρ c, W1_v13 m ρ c, W1_cst_2 m ρ c]
  unfold Cert.ReferenceIdeal.ReadP.val_main_v14 Cert.ReferenceIdeal.ReadP.val_main_call0_v1 Cert.ReferenceIdeal.ReadP.val_main_call0_v0
  rfl

set_option maxHeartbeats 1000000 in
/-- The third stretch recasts the factor as one column, whatever the contents V₂ it starts from. -/
theorem column_stretch (V₂ : Valuation τ sig (Elt Ideal)) :
    (StableHlo.after hostOps0_2 V₂ (Proc.devRef .tc main_v15) : S50000x1.Idx → EReal)
      = shapeCast S50000x1 (V₂ (Proc.devRef .tc main_v14) : S50000.Idx → EReal) shapeCasts_S50000_S50000x1 := by
  dsimp only [hostOps0_2]
  after_results_simp
  all_goals rfl

/-- The factor as one column. -/
theorem W3_v15 (c : Dev nD) : (W3 m ρ c (Proc.devRef .tc main_v15) : S50000x1.Idx → EReal)
    = shapeCast S50000x1 (Cert.ReferenceIdeal.ReadP.val_main_v14 (F := Ideal) (edges m c)) shapeCasts_S50000_S50000x1 := by
  refine (column_stretch (W2 m ρ c)).trans ?_
  rw [W2_v14 m ρ c]

set_option maxHeartbeats 4000000 in
/-- The feature matrix, its float format changed. -/
theorem W3_v16 (c : Dev nD) : (W3 m ρ c (Proc.devRef .tc main_v16) : S50000x256.Idx → EReal)
    = truncf (F := Ideal) .bf16 (arg0 m c : FVec Ideal S50000x256 .f32) bitsLt_bf16_f32 := by
  show StableHlo.after hostOps0_2 (StableHlo.after hostOps0_1 (StableHlo.after hostOps0 (W0 m ρ c))) (Proc.devRef .tc main_v16) = _
  dsimp only [hostOps0_2, hostOps0_1, hostOps0]
  after_results_simp
  all_goals rfl

set_option maxHeartbeats 4000000 in
/-- The first weight matrix, its float format changed. -/
theorem W3_v17 (c : Dev nD) : (W3 m ρ c (Proc.devRef .tc main_v17) : S256x256.Idx → EReal)
    = truncf (F := Ideal) .bf16 (arg2 m c : FVec Ideal S256x256 .f32) bitsLt_bf16_f32 := by
  show StableHlo.after hostOps0_2 (StableHlo.after hostOps0_1 (StableHlo.after hostOps0 (W0 m ρ c))) (Proc.devRef .tc main_v17) = _
  dsimp only [hostOps0_2, hostOps0_1, hostOps0]
  after_results_simp
  all_goals rfl

set_option maxHeartbeats 4000000 in
/-- The two second-round weight matrices side by side, the float format changed. -/
theorem W3_v19 (c : Dev nD) : (W3 m ρ c (Proc.devRef .tc main_v19) : S256x256.Idx → EReal)
    = truncf (F := Ideal) .bf16 (concatenate S256x256 1 [⟨S256x128, arg4 m c⟩, ⟨S256x128, arg6 m c⟩]
        concatenates_S256x128_S256x128_S256x256_d1 : FVec Ideal S256x256 .f32) bitsLt_bf16_f32 := by
  show StableHlo.after hostOps0_2 (StableHlo.after hostOps0_1 (StableHlo.after hostOps0 (W0 m ρ c))) (Proc.devRef .tc main_v19) = _
  dsimp only [hostOps0_2, hostOps0_1, hostOps0]
  after_results_simp
  all_goals rfl

set_option maxHeartbeats 4000000 in
/-- The two second-round biases end to end. -/
theorem W3_v20 (c : Dev nD) : (W3 m ρ c (Proc.devRef .tc main_v20) : S256.Idx → EReal)
    = concatenate S256 0 [⟨S128, arg5 m c⟩, ⟨S128, arg7 m c⟩] concatenates_S128_S128_S256_d0 := by
  show StableHlo.after hostOps0_2 (StableHlo.after hostOps0_1 (StableHlo.after hostOps0 (W0 m ρ c))) (Proc.devRef .tc main_v20) = _
  dsimp only [hostOps0_2, hostOps0_1, hostOps0]
  after_results_simp
  all_goals rfl

set_option maxHeartbeats 4000000 in
/-- The sender row with the self-loops appended. -/
theorem W3_v3 (c : Dev nD) : (W3 m ρ c (Proc.devRef .tc main_v3) : S850000.Idx → BitVec 32)
    = Cert.ReferenceIdeal.ReadP.val_main_v3 (F := Ideal) (edges m c) := by
  show StableHlo.after hostOps0_2 (StableHlo.after hostOps0_1 (StableHlo.after hostOps0 (W0 m ρ c))) (Proc.devRef .tc main_v3) = _
  dsimp only [hostOps0_2, hostOps0_1, hostOps0]
  after_results_simp
  all_goals rfl

set_option maxHeartbeats 4000000 in
/-- The receiver row with the self-loops appended. -/
theorem W3_v6 (c : Dev nD) : (W3 m ρ c (Proc.devRef .tc main_v6) : S850000.Idx → BitVec 32)
    = Cert.ReferenceIdeal.ReadP.val_main_v6 (F := Ideal) (edges m c) := by
  show StableHlo.after hostOps0_2 (StableHlo.after hostOps0_1 (StableHlo.after hostOps0 (W0 m ρ c))) (Proc.devRef .tc main_v6) = _
  dsimp only [hostOps0_2, hostOps0_1, hostOps0]
  after_results_simp
  all_goals rfl

set_option maxHeartbeats 4000000 in
/-- The first bias, untouched. -/
theorem W3_arg3 (c : Dev nD) : (W3 m ρ c (Proc.devRef .tc main_arg3) : S256.Idx → EReal)
    = arg3 m c := by
  show StableHlo.after hostOps0_2 (StableHlo.after hostOps0_1 (StableHlo.after hostOps0 (W0 m ρ c))) (Proc.devRef .tc main_arg3) = _
  dsimp only [hostOps0_2, hostOps0_1, hostOps0]
  after_results_simp
  all_goals rfl

end Cert.Gcn.Kernel

end
-- ==== Proof.KernelAggregate.lean ====
/-
  The kernel's aggregation between two grid regions, read at an index.

  Between its regions the kernel's host code sends rows along the edges: from the sender row it builds the wrapped
  sender column (a negative number has 50000 added), gathers the rows of a [50000, 256] matrix Y by it (each number
  clamped into [0, 49999]), and sums the gathered rows into the rows of a zero matrix by the receiver column, an edge
  whose receiver number is no node's dropped (aggregate). Entry (v, k) of the result is therefore 0 plus the sum, over
  the edges landing on node v, of Y at (the edge's sender, k) (aggregate_apply): the scatter-add read as a sum over
  the edges that land on v, the gather read as the sender's row, the change of float format in between the identity.
  The sender column and the receiver column are the same functions of the edge array that the reference computes.
-/
import proofs.«109774_j31593779429476_2_alg».proof.Proof.Gen.KernelIdeal
import proofs.«109774_j31593779429476_2_alg».proof.Proof.GcnData
import proofs.«109774_j31593779429476_2_alg».proof.Proof.LibScatterRows
import proofs.«109774_j31593779429476_2_alg».proof.Proof.LibGatherRows
import Idealize.ShloMosaic.PureOps.Ideal.Laws

noncomputable section

open scoped BigOperators

namespace Cert.Gcn.Kernel

open Cert.KernelIdeal Cert.KernelIdeal.Gen
open Idealize.ShloMosaic Idealize.ShloMosaic.ValueIdx

/-- The wrapped sender column the kernel's host code builds from the sender row. -/
def wrappedCol (src : S850000.Idx → BitVec 32) : S850000x1.Idx → BitVec 32 :=
  broadcastInDim S850000x1 ![0] bcast_S850000_S850000x1_0
    (select (cmpi .slt src (broadcastInDim S850000 ![] bcast_S_S850000 (constantI S_ 32 0#32)))
      (addi src (broadcastInDim S850000 ![] bcast_S_S850000 (constantI S_ 32 50000#32))) src)

/-- Rows of Y gathered by the wrapped sender column and summed into the receivers' rows. -/
def aggregate (Y : S50000x256.Idx → EReal) (src dst : S850000.Idx → BitVec 32) : S50000x256.Idx → EReal :=
  Host.scatterAdd (F := Ideal) (φ := .f32) scatter_S50000x256_S850000x1_S850000x256_1_0_0_1
    (broadcastInDim S50000x256 ![] bcast_S_S50000x256 (constant (F := Ideal) S_ .f32 0x00000000#32))
    (broadcastInDim S850000x1 ![0] bcast_S850000_S850000x1_0 dst)
    (extf (F := Ideal) .f32
      (Host.gather gather_S50000x256_S850000x1_S850000x256_1_0_n_n_0_1_1256 (Y : FVec Ideal S50000x256 .bf16) (wrappedCol src))
      bitsLt_bf16_f32)

/-- The kernel's wrapped sender column is the reference's. -/
theorem wrappedCol_eq (x1 : Cert.Gcn.Edges) :
    wrappedCol (Cert.ReferenceIdeal.ReadP.val_main_v3 (F := Ideal) x1) = Cert.Gcn.senderCol x1 := rfl

/-- The kernel's receiver column is the reference's. -/
theorem landsCol_eq (x1 : Cert.Gcn.Edges) :
    broadcastInDim S850000x1 ![0] bcast_S850000_S850000x1_0 (Cert.ReferenceIdeal.ReadP.val_main_v6 (F := Ideal) x1)
      = Cert.Gcn.landsCol x1 := rfl

/-- THE AGGREGATION AT (v, k): the sum over the edges landing on v of Y at (the sender, k). -/
theorem aggregate_apply (Y : S50000x256.Idx → EReal) (x1 : Cert.Gcn.Edges) (v : Fin 50000) (k : Fin 256) :
    aggregate Y (Cert.ReferenceIdeal.ReadP.val_main_v3 (F := Ideal) x1) (Cert.ReferenceIdeal.ReadP.val_main_v6 (F := Ideal) x1) (ix2 v k)
      = 0 + ∑ e ∈ Cert.Gcn.into (Cert.Gcn.lands x1) v, Y (ix2 (Cert.Gcn.sender x1 e) k) := by
  unfold aggregate
  rw [landsCol_eq, wrappedCol_eq]
  refine (Cert.ScatterRows.host_scatterAdd_rows_apply (N := 50000) (E := 850000) (C := 256)
    scatter_S50000x256_S850000x1_S850000x256_1_0_0_1 rfl rfl rfl rfl _ (Cert.Gcn.landsCol x1) _ v k).trans ?_
  refine congrArg₂ (· + ·) ?_ ?_
  · show Ideal.ofBits .f32 0x00000000#32 = 0
    exact Ideal.ofBits_zero_f32
  · refine Finset.sum_congr rfl fun e _ => ?_
    show Host.gather gather_S50000x256_S850000x1_S850000x256_1_0_n_n_0_1_1256 Y (Cert.Gcn.senderCol x1) (ix2 e k) = _
    exact Cert.GatherRows.host_gather_rows_apply (N := 50000) (E := 850000) (C := 256) (by decide)
      gather_S50000x256_S850000x1_S850000x256_1_0_n_n_0_1_1256 rfl rfl rfl rfl rfl rfl rfl Y (Cert.Gcn.senderCol x1) e k

end Cert.Gcn.Kernel

end
-- ==== Proof.KernelLayout.lean ====
/-
  Three layout operations read at an index.

  Two [256, 128] matrices joined along the columns: entry (k, j) of the [256, 256] result is the first matrix's (k, j)
  for j < 128 and the second's (k, j − 128) from there on (concat_cols_apply). Two vectors of 128 joined end to end
  likewise (concat_vec_apply). A vector of length a recast as one column [a, 1]: entry (i, 0) is the vector's entry i,
  since both sit at row-major position i (shapeCast_a_a1_apply).
-/
import proofs.«109774_j31593779429476_2_alg».proof.Proof.GcnData
import Idealize.ShloMosaic.Lib.Pipeline.Value
import Idealize.ShloMosaic.Lib.ValueIdx

noncomputable section

namespace Cert.Gcn

open Idealize.ShloMosaic Idealize.ShloMosaic.ValueIdx

/-- Two matrices side by side, read at (k, j). -/
theorem concat_cols_apply (a b : (⟨2, ![256, 128]⟩ : Shape).Idx → EReal)
    (h : Shape.Concatenates [(⟨2, ![256, 128]⟩ : Shape), (⟨2, ![256, 128]⟩ : Shape)] ⟨2, ![256, 256]⟩ 1)
    (k : Fin 256) (j : Fin 256) :
    concatenate (⟨2, ![256, 256]⟩ : Shape) 1 [⟨⟨2, ![256, 128]⟩, a⟩, ⟨⟨2, ![256, 128]⟩, b⟩] h (ix2 k j)
      = catCols (mat a) (mat b) k j := by
  unfold catCols mat
  by_cases hj : j.val < 128
  · rw [dif_pos hj]
    refine concatenate_pair_apply_left (1 : Fin 2) a b h (ix2 k j) rfl (ix2 k ⟨j.val, hj⟩) fun c => ?_
    match c with
    | ⟨0, _⟩ => rfl
    | ⟨1, _⟩ => rfl
  · rw [dif_neg hj]
    refine concatenate_pair_apply_right (1 : Fin 2) a b h (ix2 k j) rfl rfl (ix2 k ⟨j.val - 128, by omega⟩) (fun c hc => ?_) ?_
    · match c with
      | ⟨0, _⟩ => rfl
      | ⟨1, _⟩ => exact absurd rfl hc
    · show j.val - 128 + 128 = j.val
      omega

/-- Two vectors end to end, read at j. -/
theorem concat_vec_apply (a b : (⟨1, ![128]⟩ : Shape).Idx → EReal)
    (h : Shape.Concatenates [(⟨1, ![128]⟩ : Shape), (⟨1, ![128]⟩ : Shape)] ⟨1, ![256]⟩ 0) (j : Fin 256) :
    concatenate (⟨1, ![256]⟩ : Shape) 0 [⟨⟨1, ![128]⟩, a⟩, ⟨⟨1, ![128]⟩, b⟩] h (ix1 j) = catVec (vec a) (vec b) j := by
  unfold catVec vec
  by_cases hj : j.val < 128
  · rw [dif_pos hj]
    refine concatenate_pair_apply_left (0 : Fin 1) a b h (ix1 j) rfl (ix1 ⟨j.val, hj⟩) fun c => ?_
    match c with
    | ⟨0, _⟩ => rfl
  · rw [dif_neg hj]
    refine concatenate_pair_apply_right (0 : Fin 1) a b h (ix1 j) rfl rfl (ix1 ⟨j.val - 128, by omega⟩) (fun c hc => ?_) ?_
    · match c with
      | ⟨0, _⟩ => exact absurd rfl hc
    · show j.val - 128 + 128 = j.val
      omega

/-- A vector recast as one column, read at (i, 0). -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn

end
-- ==== Proof.RegionMatmul.lean ====
/-
  The two product regions of the graph convolution, each read as ONE whole-array function of the arrays the region
  finds on entry.

  Row block by row block a product region computes out = (x · w) * d: x a block of 2000 rows of a [50000, 256] array, w a
  whole [256, 256] array, d the matching 2000 entries of a [50000, 1] column, broadcast along the 256 columns. Entry
  (n, j) of the result depends on row n of x, column j of w and entry n of d only:
      out (n, j) = (∑ k, x (n, k) * w (k, j)) * d (n, 0).
  The 25 row blocks tile the 50000 rows, so the result array ends holding that function at every index.
-/
import proofs.«109774_j31593779429476_2_alg».proof.Proof.Gen.KernelIdeal.Frame
import proofs.«109774_j31593779429476_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Regions

open Cert.KernelIdeal Cert.KernelIdeal.Gen Idealize.ShloMosaic Idealize.ShloMosaic.ValueIdx Idealize.ShloMosaic.TcCoe Idealize.SL.Sem
open Idealize.ShloMosaic.Pipeline (Dat)

/- A product of two array entries with the extended reals named: an array's element type is the extended reals only
   after the buffer's type is unfolded, which instance search does not do. -/
local notation:70 a:70 " *ₑ " b:71 => @HMul.hMul EReal EReal EReal _ a b

/-! ## Two facts every region uses -/

/-- The zero offsets of a whole-block access, however they are spelt. -/
theorem zero_offsets : (![0, 0] : Fin 2 → Nat) = fun _ => 0 := funext fun a => by fin_cases a <;> rfl

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The whole-array product -/

/-- The whole-array result of a product region, index by index: row n of x against column j of w, times entry n of
    the column d. -/
def matScale (x : S50000x256.Idx → EReal) (w : S256x256.Idx → EReal) (d : S50000x1.Idx → EReal) : S50000x256.Idx → EReal :=
  fun i => (∑ k : Fin 256, x (ix2 ⟨(i 0).val, idx2_lt0 i⟩ k) * w (ix2 k ⟨(i 1).val, idx2_lt1 i⟩))
    * d (ix2 ⟨(i 0).val, idx2_lt0 i⟩ (0 : Fin 1))

/-- At an index given by its two coordinates. -/
theorem matScale_ix2 (x : S50000x256.Idx → EReal) (w : S256x256.Idx → EReal) (d : S50000x1.Idx → EReal)
    (n : Fin 50000) (j : Fin 256) :
    matScale x w d (ix2 n j) = (∑ k : Fin 256, x (ix2 n k) * w (ix2 k j)) * d (ix2 n 0) := rfl

/-- One entry of a row block's product is the whole-array function at the entry's place in the array: block b holds
    rows 2000 b … 2000 b + 1999 of x and of d, and the whole of w. -/
theorem matScale_block (X : S50000x256.Idx → EReal) (W : S256x256.Idx → EReal) (D : S50000x1.Idx → EReal)
    (x0 : FVec Ideal S2000x256 .bf16) (x1 : FVec Ideal S256x256 .bf16) (x2 : FVec Ideal S2000x1 .f32) (b : Nat)
    (h0 : ∀ (y : S2000x256.Idx) (k : S50000x256.Idx), (k 0).val = b * 2000 + (y 0).val → (k 1).val = (y 1).val → x0 y = X k)
    (h1 : ∀ y : S256x256.Idx, x1 y = W y)
    (h2 : ∀ (y : S2000x1.Idx) (k : S50000x1.Idx), (k 0).val = b * 2000 + (y 0).val → x2 y = D k)
    (p : Fin 2000) (q : Fin 256) (i : S50000x256.Idx) (hi0 : (i 0).val = b * 2000 + p.val) (hi1 : (i 1).val = q.val) :
    (∑ k : Fin 256, x0 (ix2 p k) * x1 (ix2 k q)) * x2 (ix2 p 0) = matScale X W D i := by
  unfold matScale
  have hq : q = ⟨(i 1).val, idx2_lt1 i⟩ := Fin.ext hi1.symm
  refine congrArg₂ (· * ·) (Finset.sum_congr rfl fun k _ => congrArg₂ (· * ·) ?_ ?_) ?_
  · exact h0 _ _ hi0 rfl
  · rw [h1, hq]
  · exact h2 _ _ hi0

variable (V : (c : Dev nD) → (b : Ref sig .tc) → Buf (Elt Ideal) ((c : Thread nD τ).loc b))

/-! ## Region 0 -/

/-- The product body at (p, q): row p of the left block against column q of the right array, times the column
    block's entry p. The format changes are the identity on extended reals and the accumulator is zero. -/
theorem pay0_apply (x0 : FVec Ideal S2000x256 .bf16) (x1 : FVec Ideal S256x256 .bf16) (x2 : FVec Ideal S2000x1 .f32)
    (p : Fin 2000) (q : Fin 256) :
    k0_pay1 x0 x1 x2 (ix2 p q) = (∑ k : Fin 256, x0 (ix2 p k) * x1 (ix2 k q)) * x2 (ix2 p 0) := by
  unfold k0_pay1
  simp only [shapeCast_self]
  show FloatOps.matmul _ none x0 x1 (constant (F := Ideal) S2000x256 .f32 0x00000000#32) (ix2 p q)
      * broadcastTo S2000x256 x2 broadcasts_S2000x1_S2000x256 (ix2 p q) = _
  rw [Cert.PlainDot.matmul_zero_apply _ rfl rfl rfl rfl rfl rfl, broadcastTo_a1_ab_apply]

/-- The printed index maps of region 0, decided over its 25 points: the blocks of x, of d and of the result move
    together along the rows, w's block and every column index stay at 0. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 24 ∧ win0_3.index t (1 : Fin 2) = 0 :=
  (by decide +kernel : ∀ t : Fin grid0.N, _)

/-- Every row block is some point's. -/
theorem idx_onto0 : ∀ q : Fin 25, ∃ t : Fin cfg0.N, win0_3.index t (0 : Fin 2) = q.val :=
  (by decide +kernel : ∀ q : Fin 25, ∃ t : Fin grid0.N, win0_3.index t (0 : Fin 2) = q.val)

/-- Window 0's block at point t is rows 2000 b … of x, b the block's row index. -/
theorem iblk0_0_apply (c : Dev nD) (t : Fin cfg0.N) (y : S2000x256.Idx) (k : S50000x256.Idx)
    (hk0 : (k 0).val = win0_0.index t (0 : Fin 2) * 2000 + (y 0).val)
    (hk1 : (k 1).val = win0_0.index t (1 : Fin 2) * 256 + (y 1).val) :
    (iblk0 V c 0 t : Vec Ideal S2000x256 .bf16) y = (V c main_v16 : S50000x256.Idx → EReal) k := by
  unfold iblk0
  rw [View.read_apply]
  show V c main_v16 _ = V c main_v16 _
  congr 1
  funext a
  apply Fin.ext
  match a with
  | ⟨0, _⟩ => show win0_0.index t (0 : Fin 2) * 2000 + 1 * (y 0).val = (k 0).val; omega
  | ⟨1, _⟩ => show win0_0.index t (1 : Fin 2) * 256 + 1 * (y 1).val = (k 1).val; omega

/-- Window 1's block at any point is the whole of w. -/
theorem iblk0_1_apply (c : Dev nD) (t : Fin cfg0.N) (y : S256x256.Idx) :
    (iblk0 V c 1 t : Vec Ideal S256x256 .bf16) y = (V c main_v17 : S256x256.Idx → EReal) y := by
  obtain ⟨-, -, e0, e1, -⟩ := idx_facts0 t
  unfold iblk0
  rw [View.read_apply]
  show V c main_v17 _ = V c main_v17 _
  congr 1
  funext a
  apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- Window 2's block at point t is entries 2000 b … of the column d. -/
theorem iblk0_2_apply (c : Dev nD) (t : Fin cfg0.N) (y : S2000x1.Idx) (k : S50000x1.Idx)
    (hk0 : (k 0).val = win0_2.index t (0 : Fin 2) * 2000 + (y 0).val) :
    (iblk0 V c 2 t : Vec Ideal S2000x1 .f32) y = (V c main_v15 : S50000x1.Idx → EReal) k := by
  unfold iblk0
  rw [View.read_apply]
  show V c main_v15 _ = V c main_v15 _
  congr 1
  funext a
  apply Fin.ext
  match a with
  | ⟨0, _⟩ => show win0_2.index t (0 : Fin 2) * 2000 + 1 * (y 0).val = (k 0).val; omega
  | ⟨1, _⟩ =>
    show win0_2.index t (1 : Fin 2) * 1 + 1 * (y 1).val = (k 1).val
    have h1 : (y 1).val < 1 := idx2_lt1 y
    have h2 : (k 1).val < 1 := idx2_lt1 k
    obtain ⟨-, -, -, -, -, e, -⟩ := idx_facts0 t
    omega

/-- What point t writes back is block t of the whole-array product. -/
theorem flushed0_eq (c : Dev nD) (t : Fin cfg0.N) :
    (dat0 (F := Ideal) V c).flushed 3 t
      = ((cfg0.win 3).blk t).view.read (Elt Ideal) (matScale (V c main_v16) (V c main_v17) (V c main_v15)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S256x256) zero_offsets,
    View.ld_unit_zero (S := S2000x1) zero_offsets]
  obtain ⟨e0, e1, -, -, e4, -, -, e7⟩ := idx_facts0 t
  funext y
  obtain ⟨p, q, rfl⟩ : ∃ (p : Fin 2000) (q : Fin 256), y = ix2 p q := ⟨y 0, y 1, eq_ix2 y⟩
  show k0_pay1 (iblk0 V c 0 t) (iblk0 V c 1 t) (iblk0 V c 2 t) (ix2 p q)
    = matScale (V c main_v16) (V c main_v17) (V c main_v15) (((cfg0.win 3).blk t).view.emb (ix2 p q))
  refine (pay0_apply _ _ _ p q).trans ?_
  refine matScale_block _ _ _ _ _ _ (win0_3.index t (0 : Fin 2))
    (fun y k hk0 hk1 => iblk0_0_apply V c t y k (by omega) (by omega))
    (fun y => iblk0_1_apply V c t y)
    (fun y k hk0 => iblk0_2_apply V c t y k (by omega)) p q _ ?_ ?_
  · show win0_3.index t (0 : Fin 2) * 2000 + 1 * p.val = win0_3.index t (0 : Fin 2) * 2000 + p.val; omega
  · show win0_3.index t (1 : Fin 2) * 256 + 1 * q.val = q.val; omega

/-- An index of the result is in point t's block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v21).slice (win0_3.rect t)).set ↔ _
  rw [View.set_slice_whole, Rect.mem_set_unit]
  exact Iff.rfl

/-- Row r of the result is in the block of the point whose row index is r / 2000: the blocks cover the array. -/
theorem cover0 (i : S50000x256.Idx) :
    ∃ t : Fin cfg0.N, (cfg0.win 3).flush t = true ∧ i ∈ ((cfg0.win 3).blk t).view.set := by
  have hi0 : (i 0).val < 50000 := idx2_lt0 i
  have hi1 : (i 1).val < 256 := idx2_lt1 i
  obtain ⟨t, ht⟩ := idx_onto0 ⟨(i 0).val / 2000, by omega⟩
  have ht' : win0_3.index t (0 : Fin 2) = (i 0).val / 2000 := ht
  obtain ⟨-, -, -, -, -, -, -, e7⟩ := idx_facts0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 256 ≤ (i 1).val ∧ (i 1).val < win0_3.index t (1 : Fin 2) * 256 + 256
    omega

/-- Region 0's result array ends holding the whole-array product of the arrays the region found. -/
theorem region0_final (c : Dev nD) :
    (dat0 (F := Ideal) V c).arrAt 3 cfg0.N = matScale (V c main_v16) (V c main_v17) (V c main_v15) :=
  (dat0 V c).arrAt_eq_of_cover 3 (matScale (V c main_v16) (V c main_v17) (V c main_v15))
    (fun t _ => flushed0_eq V c t) cover0

/-- REGION 0, entry by entry: the first layer's product, scaled row by row. -/
theorem region0_array (c : Dev nD) (n : Fin 50000) (j : Fin 256) :
    ((dat0 (F := Ideal) V c).arrAt 3 cfg0.N : S50000x256.Idx → EReal) (ix2 n j)
      = (∑ k : Fin 256, (V c main_v16 : S50000x256.Idx → EReal) (ix2 n k) *ₑ (V c main_v17 : S256x256.Idx → EReal) (ix2 k j))
          *ₑ (V c main_v15 : S50000x1.Idx → EReal) (ix2 n 0) := by
  rw [region0_final]
  exact matScale_ix2 _ _ _ n j

/-! ## Region 2 -/

/-- The product body at (p, q): row p of the left block against column q of the right array, times the column
    block's entry p. The format changes are the identity on extended reals and the accumulator is zero. -/
theorem pay2_apply (x0 : FVec Ideal S2000x256 .bf16) (x1 : FVec Ideal S256x256 .bf16) (x2 : FVec Ideal S2000x1 .f32)
    (p : Fin 2000) (q : Fin 256) :
    k2_pay1 x0 x1 x2 (ix2 p q) = (∑ k : Fin 256, x0 (ix2 p k) * x1 (ix2 k q)) * x2 (ix2 p 0) := by
  unfold k2_pay1
  simp only [shapeCast_self]
  show FloatOps.matmul _ none x0 x1 (constant (F := Ideal) S2000x256 .f32 0x00000000#32) (ix2 p q)
      * broadcastTo S2000x256 x2 broadcasts_S2000x1_S2000x256 (ix2 p q) = _
  rw [Cert.PlainDot.matmul_zero_apply _ rfl rfl rfl rfl rfl rfl, broadcastTo_a1_ab_apply]

/-- The printed index maps of region 2, decided over its 25 points: the blocks of x, of d and of the result move
    together along the rows, w's block and every column index stay at 0. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) ≤ 24 ∧ win2_3.index t (1 : Fin 2) = 0 :=
  (by decide +kernel : ∀ t : Fin grid2.N, _)

/-- Every row block is some point's. -/
theorem idx_onto2 : ∀ q : Fin 25, ∃ t : Fin cfg2.N, win2_3.index t (0 : Fin 2) = q.val :=
  (by decide +kernel : ∀ q : Fin 25, ∃ t : Fin grid2.N, win2_3.index t (0 : Fin 2) = q.val)

/-- Window 0's block at point t is rows 2000 b … of x, b the block's row index. -/
theorem iblk2_0_apply (c : Dev nD) (t : Fin cfg2.N) (y : S2000x256.Idx) (k : S50000x256.Idx)
    (hk0 : (k 0).val = win2_0.index t (0 : Fin 2) * 2000 + (y 0).val)
    (hk1 : (k 1).val = win2_0.index t (1 : Fin 2) * 256 + (y 1).val) :
    (iblk2 V c 0 t : Vec Ideal S2000x256 .bf16) y = (V c main_v34 : S50000x256.Idx → EReal) k := by
  unfold iblk2
  rw [View.read_apply]
  show V c main_v34 _ = V c main_v34 _
  congr 1
  funext a
  apply Fin.ext
  match a with
  | ⟨0, _⟩ => show win2_0.index t (0 : Fin 2) * 2000 + 1 * (y 0).val = (k 0).val; omega
  | ⟨1, _⟩ => show win2_0.index t (1 : Fin 2) * 256 + 1 * (y 1).val = (k 1).val; omega

/-- Window 1's block at any point is the whole of w. -/
theorem iblk2_1_apply (c : Dev nD) (t : Fin cfg2.N) (y : S256x256.Idx) :
    (iblk2 V c 1 t : Vec Ideal S256x256 .bf16) y = (V c main_v19 : S256x256.Idx → EReal) y := by
  obtain ⟨-, -, e0, e1, -⟩ := idx_facts2 t
  unfold iblk2
  rw [View.read_apply]
  show V c main_v19 _ = V c main_v19 _
  congr 1
  funext a
  apply Fin.ext
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- Window 2's block at point t is entries 2000 b … of the column d. -/
theorem iblk2_2_apply (c : Dev nD) (t : Fin cfg2.N) (y : S2000x1.Idx) (k : S50000x1.Idx)
    (hk0 : (k 0).val = win2_2.index t (0 : Fin 2) * 2000 + (y 0).val) :
    (iblk2 V c 2 t : Vec Ideal S2000x1 .f32) y = (V c main_v15 : S50000x1.Idx → EReal) k := by
  unfold iblk2
  rw [View.read_apply]
  show V c main_v15 _ = V c main_v15 _
  congr 1
  funext a
  apply Fin.ext
  match a with
  | ⟨0, _⟩ => show win2_2.index t (0 : Fin 2) * 2000 + 1 * (y 0).val = (k 0).val; omega
  | ⟨1, _⟩ =>
    show win2_2.index t (1 : Fin 2) * 1 + 1 * (y 1).val = (k 1).val
    have h1 : (y 1).val < 1 := idx2_lt1 y
    have h2 : (k 1).val < 1 := idx2_lt1 k
    obtain ⟨-, -, -, -, -, e, -⟩ := idx_facts2 t
    omega

/-- What point t writes back is block t of the whole-array product. -/
theorem flushed2_eq (c : Dev nD) (t : Fin cfg2.N) :
    (dat2 (F := Ideal) V c).flushed 3 t
      = ((cfg2.win 3).blk t).view.read (Elt Ideal) (matScale (V c main_v34) (V c main_v19) (V c main_v15)) := by
  show (cfg2.win 3).cut (grid2.coords t) ((dat2 V c).after 3 t) = _
  rw [after2_3]
  unfold out2_3
  rw [View.canon_unit_zero zero_offsets]
  simp only [View.ld_unit_zero (S := S2000x256) zero_offsets, View.ld_unit_zero (S := S256x256) zero_offsets,
    View.ld_unit_zero (S := S2000x1) zero_offsets]
  obtain ⟨e0, e1, -, -, e4, -, -, e7⟩ := idx_facts2 t
  funext y
  obtain ⟨p, q, rfl⟩ : ∃ (p : Fin 2000) (q : Fin 256), y = ix2 p q := ⟨y 0, y 1, eq_ix2 y⟩
  show k2_pay1 (iblk2 V c 0 t) (iblk2 V c 1 t) (iblk2 V c 2 t) (ix2 p q)
    = matScale (V c main_v34) (V c main_v19) (V c main_v15) (((cfg2.win 3).blk t).view.emb (ix2 p q))
  refine (pay2_apply _ _ _ p q).trans ?_
  refine matScale_block _ _ _ _ _ _ (win2_3.index t (0 : Fin 2))
    (fun y k hk0 hk1 => iblk2_0_apply V c t y k (by omega) (by omega))
    (fun y => iblk2_1_apply V c t y)
    (fun y k hk0 => iblk2_2_apply V c t y k (by omega)) p q _ ?_ ?_
  · show win2_3.index t (0 : Fin 2) * 2000 + 1 * p.val = win2_3.index t (0 : Fin 2) * 2000 + p.val; omega
  · show win2_3.index t (1 : Fin 2) * 256 + 1 * q.val = q.val; omega

/-- An index of the result is in point t's block iff each coordinate is in the block's range on its axis. -/
theorem mem_blk2 (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v35).slice (win2_3.rect t)).set ↔ _
  rw [View.set_slice_whole, Rect.mem_set_unit]
  exact Iff.rfl

/-- Row r of the result is in the block of the point whose row index is r / 2000: the blocks cover the array. -/
theorem cover2 (i : S50000x256.Idx) :
    ∃ t : Fin cfg2.N, (cfg2.win 3).flush t = true ∧ i ∈ ((cfg2.win 3).blk t).view.set := by
  have hi0 : (i 0).val < 50000 := idx2_lt0 i
  have hi1 : (i 1).val < 256 := idx2_lt1 i
  obtain ⟨t, ht⟩ := idx_onto2 ⟨(i 0).val / 2000, by omega⟩
  have ht' : win2_3.index t (0 : Fin 2) = (i 0).val / 2000 := ht
  obtain ⟨-, -, -, -, -, -, -, e7⟩ := idx_facts2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 256 ≤ (i 1).val ∧ (i 1).val < win2_3.index t (1 : Fin 2) * 256 + 256
    omega

/-- Region 2's result array ends holding the whole-array product of the arrays the region found. -/
theorem region2_final (c : Dev nD) :
    (dat2 (F := Ideal) V c).arrAt 3 cfg2.N = matScale (V c main_v34) (V c main_v19) (V c main_v15) :=
  (dat2 V c).arrAt_eq_of_cover 3 (matScale (V c main_v34) (V c main_v19) (V c main_v15))
    (fun t _ => flushed2_eq V c t) cover2

/-- REGION 2, entry by entry: the second layer's product, scaled row by row. -/
theorem region2_array (c : Dev nD) (n : Fin 50000) (j : Fin 256) :
    ((dat2 (F := Ideal) V c).arrAt 3 cfg2.N : S50000x256.Idx → EReal) (ix2 n j)
      = (∑ k : Fin 256, (V c main_v34 : S50000x256.Idx → EReal) (ix2 n k) *ₑ (V c main_v19 : S256x256.Idx → EReal) (ix2 k j))
          *ₑ (V c main_v15 : S50000x1.Idx → EReal) (ix2 n 0) := by
  rw [region2_final]
  exact matScale_ix2 _ _ _ n j

end Cert.Gcn.Regions

end
-- ==== Proof.RegionPost.lean ====
/-
  The two scale-and-shift regions of the graph convolution, each read as ONE whole-array function of the arrays the
  region finds on entry.

  Row block by row block such a region computes out = a * d + b, the first of the two followed by a maximum with zero: a a
  block of 2000 rows of a [50000, 256] array, d the matching 2000 entries of a [50000, 1] column broadcast along the
  256 columns, b a whole [1, 256] row broadcast along the rows. Entry (n, j) of the result depends on entry (n, j)
  of a, entry n of d and entry j of b only:
      out (n, j) = a (n, j) * d (n, 0) + b (0, j).
  The 25 row blocks tile the 50000 rows, so the result array ends holding that function at every index.
-/
import proofs.«109774_j31593779429476_2_alg».proof.Proof.Gen.KernelIdeal.Frame
import proofs.«109774_j31593779429476_2_alg».proof.Proof.RegionMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Regions

open Cert.KernelIdeal Cert.KernelIdeal.Gen Idealize.ShloMosaic Idealize.ShloMosaic.ValueIdx Idealize.ShloMosaic.TcCoe Idealize.SL.Sem
open Idealize.ShloMosaic.Pipeline (Dat)

/- A product and a sum of array entries with the extended reals named: an array's element type is the extended reals
   only after the buffer's type is unfolded, which instance search does not do. -/
local notation:70 a:70 " *ₑ " b:71 => @HMul.hMul EReal EReal EReal _ a b
local notation:65 a:65 " +ₑ " b:66 => @HAdd.hAdd EReal EReal EReal _ a b

/-! ## The whole-array scale and shift -/

/-- The whole-array result of a scale-and-shift region, index by index: entry (n, j) of a times entry n of the
    column d, plus entry j of the row b. -/
def scaleShift (a : S50000x256.Idx → EReal) (d : S50000x1.Idx → EReal) (b : S1x256.Idx → EReal) : S50000x256.Idx → EReal :=
  fun i => a (ix2 ⟨(i 0).val, idx2_lt0 i⟩ ⟨(i 1).val, idx2_lt1 i⟩) * d (ix2 ⟨(i 0).val, idx2_lt0 i⟩ (0 : Fin 1))
    + b (ix2 (0 : Fin 1) ⟨(i 1).val, idx2_lt1 i⟩)

/-- At an index given by its two coordinates. -/
theorem scaleShift_ix2 (a : S50000x256.Idx → EReal) (d : S50000x1.Idx → EReal) (b : S1x256.Idx → EReal)
    (n : Fin 50000) (j : Fin 256) :
    scaleShift a d b (ix2 n j) = a (ix2 n j) * d (ix2 n 0) + b (ix2 0 j) := rfl

/-- The same followed by the maximum with zero. -/
def scaleShiftMax (a : S50000x256.Idx → EReal) (d : S50000x1.Idx → EReal) (b : S1x256.Idx → EReal) : S50000x256.Idx → EReal :=
  fun i => max (scaleShift a d b i) 0

/-- At an index given by its two coordinates. -/
theorem scaleShiftMax_ix2 (a : S50000x256.Idx → EReal) (d : S50000x1.Idx → EReal) (b : S1x256.Idx → EReal)
    (n : Fin 50000) (j : Fin 256) :
    scaleShiftMax a d b (ix2 n j) = max (a (ix2 n j) * d (ix2 n 0) + b (ix2 0 j)) 0 := rfl

/-- One entry of a row block's scale and shift is the whole-array function at the entry's place in the array: block
    k holds rows 2000 k … 2000 k + 1999 of a and of d, and the whole of b. -/
theorem scaleShift_block (A : S50000x256.Idx → EReal) (D : S50000x1.Idx → EReal) (B : S1x256.Idx → EReal)
    (x0 : FVec Ideal S2000x256 .f32) (x1 : FVec Ideal S2000x1 .f32) (x2 : FVec Ideal S1x256 .f32) (b : Nat)
    (h0 : ∀ (y : S2000x256.Idx) (k : S50000x256.Idx), (k 0).val = b * 2000 + (y 0).val → (k 1).val = (y 1).val → x0 y = A k)
    (h1 : ∀ (y : S2000x1.Idx) (k : S50000x1.Idx), (k 0).val = b * 2000 + (y 0).val → x1 y = D k)
    (h2 : ∀ y : S1x256.Idx, x2 y = B y)
    (p : Fin 2000) (q : Fin 256) (i : S50000x256.Idx) (hi0 : (i 0).val = b * 2000 + p.val) (hi1 : (i 1).val = q.val) :
    x0 (ix2 p q) * x1 (ix2 p 0) + x2 (ix2 0 q) = scaleShift A D B i := by
  unfold scaleShift
  have hq : q = ⟨(i 1).val, idx2_lt1 i⟩ := Fin.ext hi1.symm
  refine congrArg₂ (· + ·) (congrArg₂ (· * ·) ?_ ?_) ?_
  · exact h0 _ _ hi0 hi1
  · exact h1 _ _ hi0
  · rw [h2, hq]

variable (V : (c : Dev nD) → (b : Ref sig .tc) → Buf (Elt Ideal) ((c : Thread nD τ).loc b))

/-! ## Region 1 -/

/-- The body at (p, q): entry (p, q) of the left block times the column block's entry p, plus the row's entry q, then the maximum with zero.
    The format changes are the identity on extended reals. -/
theorem pay1_apply (x0 : FVec Ideal S2000x256 .f32) (x1 : FVec Ideal S2000x1 .f32) (x2 : FVec Ideal S1x256 .f32)
    (p : Fin 2000) (q : Fin 256) :
    k1_pay1 (F := Ideal) x0 x1 x2 (ix2 p q) = max (x0 (ix2 p q) * x1 (ix2 p 0) + x2 (ix2 0 q)) 0 := by
  unfold k1_pay1
  simp only [shapeCast_self]
  show max (x0 (ix2 p q) * broadcastTo S2000x256 x1 broadcasts_S2000x1_S2000x256 (ix2 p q)
      + broadcastTo S2000x256 x2 broadcasts_S1x256_S2000x256 (ix2 p q)) (Ideal.ofBits .f32 0x00000000#32) = _
  rw [broadcastTo_a1_ab_apply, broadcastTo_1b_ab_apply, Ideal.ofBits_zero_f32]

/-- The printed index maps of region 1, decided over its 25 points: the blocks of a, of d and of the result move
    together along the rows, b's block and every column index stay at 0. -/
theorem idx_facts1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) ≤ 24 ∧ win1_3.index t (1 : Fin 2) = 0 :=
  (by decide +kernel : ∀ t : Fin grid1.N, _)

/-- Every row block is some point's. -/
theorem idx_onto1 : ∀ q : Fin 25, ∃ t : Fin cfg1.N, win1_3.index t (0 : Fin 2) = q.val :=
  (by decide +kernel : ∀ q : Fin 25, ∃ t : Fin grid1.N, win1_3.index t (0 : Fin 2) = q.val)

/-- Window 0's block at point t is rows 2000 k … of a, k the block's row index. -/
theorem iblk1_0_apply (c : Dev nD) (t : Fin cfg1.N) (y : S2000x256.Idx) (k : S50000x256.Idx)
    (hk0 : (k 0).val = win1_0.index t (0 : Fin 2) * 2000 + (y 0).val)
    (hk1 : (k 1).val = win1_0.index t (1 : Fin 2) * 256 + (y 1).val) :
    (iblk1 V c 0 t : Vec Ideal S2000x256 .f32) y = (V c main_v32 : S50000x256.Idx → EReal) k := by
  unfold iblk1
  rw [View.read_apply]
  show V c main_v32 _ = V c main_v32 _
  congr 1
  funext a
  apply Fin.ext
  match a with
  | ⟨0, _⟩ => show win1_0.index t (0 : Fin 2) * 2000 + 1 * (y 0).val = (k 0).val; omega
  | ⟨1, _⟩ => show win1_0.index t (1 : Fin 2) * 256 + 1 * (y 1).val = (k 1).val; omega

/-- Window 1's block at point t is entries 2000 k … of the column d. -/
theorem iblk1_1_apply (c : Dev nD) (t : Fin cfg1.N) (y : S2000x1.Idx) (k : S50000x1.Idx)
    (hk0 : (k 0).val = win1_1.index t (0 : Fin 2) * 2000 + (y 0).val) :
    (iblk1 V c 1 t : Vec Ideal S2000x1 .f32) y = (V c main_v15 : S50000x1.Idx → EReal) k := by
  unfold iblk1
  rw [View.read_apply]
  show V c main_v15 _ = V c main_v15 _
  congr 1
  funext a
  apply Fin.ext
  match a with
  | ⟨0, _⟩ => show win1_1.index t (0 : Fin 2) * 2000 + 1 * (y 0).val = (k 0).val; omega
  | ⟨1, _⟩ =>
    show win1_1.index t (1 : Fin 2) * 1 + 1 * (y 1).val = (k 1).val
    have h1 : (y 1).val < 1 := idx2_lt1 y
    have h2 : (k 1).val < 1 := idx2_lt1 k
    obtain ⟨-, -, -, e, -⟩ := idx_facts1 t
    omega

/-- Window 2's block at any point is the whole of the row b. -/
theorem iblk1_2_apply (c : Dev nD) (t : Fin cfg1.N) (y : S1x256.Idx) :
    (iblk1 V c 2 t : Vec Ideal S1x256 .f32) y = (V c main_v33 : S1x256.Idx → EReal) y := by
  obtain ⟨-, -, -, -, e0, e1, -⟩ := idx_facts1 t
  unfold iblk1
  rw [View.read_apply]
  show V c main_v33 _ = V c main_v33 _
  congr 1
  funext a
  apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What point t writes back is block t of the whole-array function. -/
theorem flushed1_eq (c : Dev nD) (t : Fin cfg1.N) :
    (dat1 (F := Ideal) V c).flushed 3 t
      = ((cfg1.win 3).blk t).view.read (Elt Ideal) (scaleShiftMax (V c main_v32) (V c main_v15) (V c main_v33)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S2000x1) zero_offsets,
    View.ld_unit_zero (S := S1x256) zero_offsets]
  obtain ⟨e0, e1, e2, -, -, -, -, e7⟩ := idx_facts1 t
  funext y
  obtain ⟨p, q, rfl⟩ : ∃ (p : Fin 2000) (q : Fin 256), y = ix2 p q := ⟨y 0, y 1, eq_ix2 y⟩
  show k1_pay1 (iblk1 V c 0 t) (iblk1 V c 1 t) (iblk1 V c 2 t) (ix2 p q)
    = scaleShiftMax (V c main_v32) (V c main_v15) (V c main_v33) (((cfg1.win 3).blk t).view.emb (ix2 p q))
  refine (pay1_apply _ _ _ p q).trans (congrArg (max · (0 : EReal)) ?_)
  refine scaleShift_block _ _ _ _ _ _ (win1_3.index t (0 : Fin 2))
    (fun y k hk0 hk1 => iblk1_0_apply V c t y k (by omega) (by omega))
    (fun y k hk0 => iblk1_1_apply V c t y k (by omega))
    (fun y => iblk1_2_apply V c t y) p q _ ?_ ?_
  · show win1_3.index t (0 : Fin 2) * 2000 + 1 * p.val = win1_3.index t (0 : Fin 2) * 2000 + p.val; omega
  · show win1_3.index t (1 : Fin 2) * 256 + 1 * q.val = q.val; omega

/-- An index of the result is in point t's block iff each coordinate is in the block's range on its axis. -/
theorem mem_blk1 (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v34).slice (win1_3.rect t)).set ↔ _
  rw [View.set_slice_whole, Rect.mem_set_unit]
  exact Iff.rfl

/-- Row r of the result is in the block of the point whose row index is r / 2000: the blocks cover the array. -/
theorem cover1 (i : S50000x256.Idx) :
    ∃ t : Fin cfg1.N, (cfg1.win 3).flush t = true ∧ i ∈ ((cfg1.win 3).blk t).view.set := by
  have hi0 : (i 0).val < 50000 := idx2_lt0 i
  have hi1 : (i 1).val < 256 := idx2_lt1 i
  obtain ⟨t, ht⟩ := idx_onto1 ⟨(i 0).val / 2000, by omega⟩
  have ht' : win1_3.index t (0 : Fin 2) = (i 0).val / 2000 := ht
  obtain ⟨-, -, -, -, -, -, -, e7⟩ := idx_facts1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 256 ≤ (i 1).val ∧ (i 1).val < win1_3.index t (1 : Fin 2) * 256 + 256
    omega

/-- Region 1's result array ends holding the whole-array function of the arrays the region found. -/
theorem region1_final (c : Dev nD) :
    (dat1 (F := Ideal) V c).arrAt 3 cfg1.N = scaleShiftMax (V c main_v32) (V c main_v15) (V c main_v33) :=
  (dat1 V c).arrAt_eq_of_cover 3 (scaleShiftMax (V c main_v32) (V c main_v15) (V c main_v33))
    (fun t _ => flushed1_eq V c t) cover1

/-- REGION 1, entry by entry: the first layer's scale and shift, then the maximum with zero. -/
theorem region1_array (c : Dev nD) (n : Fin 50000) (j : Fin 256) :
    ((dat1 (F := Ideal) V c).arrAt 3 cfg1.N : S50000x256.Idx → EReal) (ix2 n j)
      = max ((V c main_v32 : S50000x256.Idx → EReal) (ix2 n j) *ₑ (V c main_v15 : S50000x1.Idx → EReal) (ix2 n 0)
              +ₑ (V c main_v33 : S1x256.Idx → EReal) (ix2 0 j)) 0 := by
  rw [region1_final]
  exact scaleShiftMax_ix2 _ _ _ n j

/-! ## Region 3 -/

/-- The body at (p, q): entry (p, q) of the left block times the column block's entry p, plus the row's entry q.
    The format changes are the identity on extended reals. -/
theorem pay3_apply (x0 : FVec Ideal S2000x256 .f32) (x1 : FVec Ideal S2000x1 .f32) (x2 : FVec Ideal S1x256 .f32)
    (p : Fin 2000) (q : Fin 256) :
    k3_pay1 (F := Ideal) x0 x1 x2 (ix2 p q) = x0 (ix2 p q) * x1 (ix2 p 0) + x2 (ix2 0 q) := by
  unfold k3_pay1
  simp only [shapeCast_self]
  show x0 (ix2 p q) * broadcastTo S2000x256 x1 broadcasts_S2000x1_S2000x256 (ix2 p q)
      + broadcastTo S2000x256 x2 broadcasts_S1x256_S2000x256 (ix2 p q) = _
  rw [broadcastTo_a1_ab_apply, broadcastTo_1b_ab_apply]

/-- The printed index maps of region 3, decided over its 25 points: the blocks of a, of d and of the result move
    together along the rows, b's block and every column index stay at 0. -/
theorem idx_facts3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) ≤ 24 ∧ win3_3.index t (1 : Fin 2) = 0 :=
  (by decide +kernel : ∀ t : Fin grid3.N, _)

/-- Every row block is some point's. -/
theorem idx_onto3 : ∀ q : Fin 25, ∃ t : Fin cfg3.N, win3_3.index t (0 : Fin 2) = q.val :=
  (by decide +kernel : ∀ q : Fin 25, ∃ t : Fin grid3.N, win3_3.index t (0 : Fin 2) = q.val)

/-- Window 0's block at point t is rows 2000 k … of a, k the block's row index. -/
theorem iblk3_0_apply (c : Dev nD) (t : Fin cfg3.N) (y : S2000x256.Idx) (k : S50000x256.Idx)
    (hk0 : (k 0).val = win3_0.index t (0 : Fin 2) * 2000 + (y 0).val)
    (hk1 : (k 1).val = win3_0.index t (1 : Fin 2) * 256 + (y 1).val) :
    (iblk3 V c 0 t : Vec Ideal S2000x256 .f32) y = (V c main_v46 : S50000x256.Idx → EReal) k := by
  unfold iblk3
  rw [View.read_apply]
  show V c main_v46 _ = V c main_v46 _
  congr 1
  funext a
  apply Fin.ext
  match a with
  | ⟨0, _⟩ => show win3_0.index t (0 : Fin 2) * 2000 + 1 * (y 0).val = (k 0).val; omega
  | ⟨1, _⟩ => show win3_0.index t (1 : Fin 2) * 256 + 1 * (y 1).val = (k 1).val; omega

/-- Window 1's block at point t is entries 2000 k … of the column d. -/
theorem iblk3_1_apply (c : Dev nD) (t : Fin cfg3.N) (y : S2000x1.Idx) (k : S50000x1.Idx)
    (hk0 : (k 0).val = win3_1.index t (0 : Fin 2) * 2000 + (y 0).val) :
    (iblk3 V c 1 t : Vec Ideal S2000x1 .f32) y = (V c main_v15 : S50000x1.Idx → EReal) k := by
  unfold iblk3
  rw [View.read_apply]
  show V c main_v15 _ = V c main_v15 _
  congr 1
  funext a
  apply Fin.ext
  match a with
  | ⟨0, _⟩ => show win3_1.index t (0 : Fin 2) * 2000 + 1 * (y 0).val = (k 0).val; omega
  | ⟨1, _⟩ =>
    show win3_1.index t (1 : Fin 2) * 1 + 1 * (y 1).val = (k 1).val
    have h1 : (y 1).val < 1 := idx2_lt1 y
    have h2 : (k 1).val < 1 := idx2_lt1 k
    obtain ⟨-, -, -, e, -⟩ := idx_facts3 t
    omega

/-- Window 2's block at any point is the whole of the row b. -/
theorem iblk3_2_apply (c : Dev nD) (t : Fin cfg3.N) (y : S1x256.Idx) :
    (iblk3 V c 2 t : Vec Ideal S1x256 .f32) y = (V c main_v47 : S1x256.Idx → EReal) y := by
  obtain ⟨-, -, -, -, e0, e1, -⟩ := idx_facts3 t
  unfold iblk3
  rw [View.read_apply]
  show V c main_v47 _ = V c main_v47 _
  congr 1
  funext a
  apply Fin.ext
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- What point t writes back is block t of the whole-array function. -/
theorem flushed3_eq (c : Dev nD) (t : Fin cfg3.N) :
    (dat3 (F := Ideal) V c).flushed 3 t
      = ((cfg3.win 3).blk t).view.read (Elt Ideal) (scaleShift (V c main_v46) (V c main_v15) (V c main_v47)) := by
  show (cfg3.win 3).cut (grid3.coords t) ((dat3 V c).after 3 t) = _
  rw [after3_3]
  unfold out3_3
  rw [View.canon_unit_zero zero_offsets]
  simp only [View.ld_unit_zero (S := S2000x256) zero_offsets, View.ld_unit_zero (S := S2000x1) zero_offsets,
    View.ld_unit_zero (S := S1x256) zero_offsets]
  obtain ⟨e0, e1, e2, -, -, -, -, e7⟩ := idx_facts3 t
  funext y
  obtain ⟨p, q, rfl⟩ : ∃ (p : Fin 2000) (q : Fin 256), y = ix2 p q := ⟨y 0, y 1, eq_ix2 y⟩
  show k3_pay1 (iblk3 V c 0 t) (iblk3 V c 1 t) (iblk3 V c 2 t) (ix2 p q)
    = scaleShift (V c main_v46) (V c main_v15) (V c main_v47) (((cfg3.win 3).blk t).view.emb (ix2 p q))
  refine (pay3_apply _ _ _ p q).trans ?_
  refine scaleShift_block _ _ _ _ _ _ (win3_3.index t (0 : Fin 2))
    (fun y k hk0 hk1 => iblk3_0_apply V c t y k (by omega) (by omega))
    (fun y k hk0 => iblk3_1_apply V c t y k (by omega))
    (fun y => iblk3_2_apply V c t y) p q _ ?_ ?_
  · show win3_3.index t (0 : Fin 2) * 2000 + 1 * p.val = win3_3.index t (0 : Fin 2) * 2000 + p.val; omega
  · show win3_3.index t (1 : Fin 2) * 256 + 1 * q.val = q.val; omega

/-- An index of the result is in point t's block iff each coordinate is in the block's range on its axis. -/
theorem mem_blk3 (t : Fin cfg3.N) (i : S50000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v48).slice (win3_3.rect t)).set ↔ _
  rw [View.set_slice_whole, Rect.mem_set_unit]
  exact Iff.rfl

/-- Row r of the result is in the block of the point whose row index is r / 2000: the blocks cover the array. -/
theorem cover3 (i : S50000x256.Idx) :
    ∃ t : Fin cfg3.N, (cfg3.win 3).flush t = true ∧ i ∈ ((cfg3.win 3).blk t).view.set := by
  have hi0 : (i 0).val < 50000 := idx2_lt0 i
  have hi1 : (i 1).val < 256 := idx2_lt1 i
  obtain ⟨t, ht⟩ := idx_onto3 ⟨(i 0).val / 2000, by omega⟩
  have ht' : win3_3.index t (0 : Fin 2) = (i 0).val / 2000 := ht
  obtain ⟨-, -, -, -, -, -, -, e7⟩ := idx_facts3 t
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 256 ≤ (i 1).val ∧ (i 1).val < win3_3.index t (1 : Fin 2) * 256 + 256
    omega

/-- Region 3's result array ends holding the whole-array function of the arrays the region found. -/
theorem region3_final (c : Dev nD) :
    (dat3 (F := Ideal) V c).arrAt 3 cfg3.N = scaleShift (V c main_v46) (V c main_v15) (V c main_v47) :=
  (dat3 V c).arrAt_eq_of_cover 3 (scaleShift (V c main_v46) (V c main_v15) (V c main_v47))
    (fun t _ => flushed3_eq V c t) cover3

/-- REGION 3, entry by entry: the second layer's scale and shift. -/
theorem region3_array (c : Dev nD) (n : Fin 50000) (j : Fin 256) :
    ((dat3 (F := Ideal) V c).arrAt 3 cfg3.N : S50000x256.Idx → EReal) (ix2 n j)
      = (V c main_v46 : S50000x256.Idx → EReal) (ix2 n j) *ₑ (V c main_v15 : S50000x1.Idx → EReal) (ix2 n 0)
          +ₑ (V c main_v47 : S1x256.Idx → EReal) (ix2 0 j) := by
  rw [region3_final]
  exact scaleShift_ix2 _ _ _ n j

end Cert.Gcn.Regions

end
-- ==== Proof.RegionValues.lean ====
/-
  The four grid regions of the two-layer graph convolution, each read as one whole-array function of the arrays it
  finds on entry: the product regions 0 and 2 (out (n, j) = (∑ k, x (n, k) * w (k, j)) * d (n, 0)) and the
  scale-and-shift regions 1 and 3 (out (n, j) = a (n, j) * d (n, 0) + b (0, j), region 1 followed by the maximum
  with zero).
-/
import proofs.«109774_j31593779429476_2_alg».proof.Proof.RegionMatmul
import proofs.«109774_j31593779429476_2_alg».proof.Proof.RegionPost
-- ==== Proof.KernelChain.lean ====
/-
  The idealized kernel's buffers from its first region's exit to its results, boundary by boundary.

  After the first region its output array holds, row n, the product row (X · W₁) n scaled by node n's factor. The host
  then sends these rows along the edges and sums them at the receivers (the aggregation), the second region scales each
  sum by the receiver's factor, adds the first bias and rectifies, giving the hidden features H. The third region
  multiplies H by the two second-round weight matrices set side by side and scales the rows again, the host
  aggregates again, the fourth region scales by the receiver's factor and adds the two second-round biases set end to
  end, and the two results are the left and the right 128 columns of that. A region's input arrays and every array
  it does not use are the same after it as before it; a host stretch changes only the buffers its operations write.
-/
import proofs.«109774_j31593779429476_2_alg».proof.Proof.KernelEntry
import proofs.«109774_j31593779429476_2_alg».proof.Proof.KernelAggregate
import proofs.«109774_j31593779429476_2_alg».proof.Proof.KernelLayout
import proofs.«109774_j31593779429476_2_alg».proof.Proof.RegionValues
import Idealize.ShloMosaic.Lib.ValueLayout

set_option maxRecDepth 16384

noncomputable section

open scoped BigOperators

namespace Cert.Gcn.Kernel

open Cert.KernelIdeal Cert.KernelIdeal.Gen Cert.Gcn Cert.Gcn.Regions
open Idealize.ShloMosaic Idealize.ShloMosaic.TcCoe Idealize.ShloMosaic.ValueIdx Idealize.SL.Sem Idealize.ShloMosaic.StableHlo
open Idealize.ShloMosaic.Pipeline (Dat)

/-! ## The host stretches between the regions, from any contents -/

set_option maxHeartbeats 1000000 in
/-- The stretch after the first region aggregates that region's output. -/
theorem stretch1_v32 (V : Valuation τ sig (Elt Ideal)) :
    (StableHlo.after hostOps1 V (Proc.devRef .tc main_v32) : S50000x256.Idx → EReal)
      = aggregate (V (Proc.devRef .tc main_v21) : S50000x256.Idx → EReal) (V (Proc.devRef .tc main_v3) : S850000.Idx → BitVec 32)
          (V (Proc.devRef .tc main_v6) : S850000.Idx → BitVec 32) := by
  dsimp only [hostOps1]
  after_results_simp
  all_goals rfl

set_option maxHeartbeats 1000000 in
/-- It also recasts the first bias as one row. -/
theorem stretch1_v33 (V : Valuation τ sig (Elt Ideal)) :
    (StableHlo.after hostOps1 V (Proc.devRef .tc main_v33) : S1x256.Idx → EReal)
      = shapeCast S1x256 (V (Proc.devRef .tc main_arg3) : S256.Idx → EReal) shapeCasts_S256_S1x256 := by
  dsimp only [hostOps1]
  after_results_simp
  all_goals rfl

set_option maxHeartbeats 1000000 in
theorem stretch1_v15 (V : Valuation τ sig (Elt Ideal)) :
    (StableHlo.after hostOps1 V (Proc.devRef .tc main_v15) : S50000x1.Idx → EReal) = V (Proc.devRef .tc main_v15) := by
  dsimp only [hostOps1]
  after_results_simp
  all_goals rfl

set_option maxHeartbeats 1000000 in
theorem stretch1_v19 (V : Valuation τ sig (Elt Ideal)) :
    (StableHlo.after hostOps1 V (Proc.devRef .tc main_v19) : S256x256.Idx → EReal) = V (Proc.devRef .tc main_v19) := by
  dsimp only [hostOps1]
  after_results_simp
  all_goals rfl

set_option maxHeartbeats 1000000 in
theorem stretch1_v20 (V : Valuation τ sig (Elt Ideal)) :
    (StableHlo.after hostOps1 V (Proc.devRef .tc main_v20) : S256.Idx → EReal) = V (Proc.devRef .tc main_v20) := by
  dsimp only [hostOps1]
  after_results_simp
  all_goals rfl

set_option maxHeartbeats 1000000 in
theorem stretch1_v3 (V : Valuation τ sig (Elt Ideal)) :
    (StableHlo.after hostOps1 V (Proc.devRef .tc main_v3) : S850000.Idx → BitVec 32) = V (Proc.devRef .tc main_v3) := by
  dsimp only [hostOps1]
  after_results_simp
  all_goals rfl

set_option maxHeartbeats 1000000 in
theorem stretch1_v6 (V : Valuation τ sig (Elt Ideal)) :
    (StableHlo.after hostOps1 V (Proc.devRef .tc main_v6) : S850000.Idx → BitVec 32) = V (Proc.devRef .tc main_v6) := by
  dsimp only [hostOps1]
  after_results_simp
  all_goals rfl

set_option maxHeartbeats 1000000 in
/-- The stretch after the third region aggregates that region's output. -/
theorem stretch3_v46 (V : Valuation τ sig (Elt Ideal)) :
    (StableHlo.after hostOps3 V (Proc.devRef .tc main_v46) : S50000x256.Idx → EReal)
      = aggregate (V (Proc.devRef .tc main_v35) : S50000x256.Idx → EReal) (V (Proc.devRef .tc main_v3) : S850000.Idx → BitVec 32)
          (V (Proc.devRef .tc main_v6) : S850000.Idx → BitVec 32) := by
  dsimp only [hostOps3]
  after_results_simp
  all_goals rfl

set_option maxHeartbeats 1000000 in
/-- It also recasts the joined second-round biases as one row. -/
theorem stretch3_v47 (V : Valuation τ sig (Elt Ideal)) :
    (StableHlo.after hostOps3 V (Proc.devRef .tc main_v47) : S1x256.Idx → EReal)
      = shapeCast S1x256 (V (Proc.devRef .tc main_v20) : S256.Idx → EReal) shapeCasts_S256_S1x256 := by
  dsimp only [hostOps3]
  after_results_simp
  all_goals rfl

set_option maxHeartbeats 1000000 in
theorem stretch3_v15 (V : Valuation τ sig (Elt Ideal)) :
    (StableHlo.after hostOps3 V (Proc.devRef .tc main_v15) : S50000x1.Idx → EReal) = V (Proc.devRef .tc main_v15) := by
  dsimp only [hostOps3]
  after_results_simp
  all_goals rfl

set_option maxHeartbeats 1000000 in
/-- The last stretch cuts the left 128 columns out of the fourth region's output, -/
theorem stretch4_v49 (V : Valuation τ sig (Elt Ideal)) :
    (StableHlo.after hostOps4 V (Proc.devRef .tc main_v49) : S50000x128.Idx → EReal)
      = extractStridedSlice S50000x128 ![0, 0] (V (Proc.devRef .tc main_v48) : S50000x256.Idx → EReal) slices_S50000x256_S50000x128_0_0 := by
  dsimp only [hostOps4]
  after_results_simp
  all_goals rfl

set_option maxHeartbeats 1000000 in
/-- and the right 128. -/
theorem stretch4_v50 (V : Valuation τ sig (Elt Ideal)) :
    (StableHlo.after hostOps4 V (Proc.devRef .tc main_v50) : S50000x128.Idx → EReal)
      = extractStridedSlice S50000x128 ![0, 128] (V (Proc.devRef .tc main_v48) : S50000x256.Idx → EReal) slices_S50000x256_S50000x128_0_128 := by
  dsimp only [hostOps4]
  after_results_simp
  all_goals rfl

variable (m : (ℓ : Loc nD τ sig) → Buf (Elt Ideal) ℓ) (ρ : Dev nD → PrngReg)

/-! ## The first region's exit -/

/-- Its output array: the rows of X · W₁, each scaled by its node's factor. -/
theorem W4_v21 (c : Dev nD) : (W4 m ρ c (Proc.devRef .tc main_v21) : S50000x256.Idx → EReal)
    = matScale (W3 m ρ c (Proc.devRef .tc main_v16)) (W3 m ρ c (Proc.devRef .tc main_v17)) (W3 m ρ c (Proc.devRef .tc main_v15)) :=
  (W4_arr m ρ c 3).trans (region0_final (V3 m ρ) c)

/-- The factor column is an input of the region: unchanged. -/
theorem W4_v15 (c : Dev nD) : (W4 m ρ c (Proc.devRef .tc main_v15) : S50000x1.Idx → EReal) = W3 m ρ c (Proc.devRef .tc main_v15) :=
  (W4_arr m ρ c 2).trans (((dat0 (F := Ideal) (V3 m ρ) c).arrAt_in 2 rfl cfg0.N).trans (A_eq0 (V3 m ρ) c 2))

theorem W4_v3 (c : Dev nD) : (W4 m ρ c (Proc.devRef .tc main_v3) : S850000.Idx → BitVec 32) = W3 m ρ c (Proc.devRef .tc main_v3) :=
  W4_of_ne m ρ c main_v3 (by decide)
theorem W4_v6 (c : Dev nD) : (W4 m ρ c (Proc.devRef .tc main_v6) : S850000.Idx → BitVec 32) = W3 m ρ c (Proc.devRef .tc main_v6) :=
  W4_of_ne m ρ c main_v6 (by decide)
theorem W4_v19 (c : Dev nD) : (W4 m ρ c (Proc.devRef .tc main_v19) : S256x256.Idx → EReal) = W3 m ρ c (Proc.devRef .tc main_v19) :=
  W4_of_ne m ρ c main_v19 (by decide)
theorem W4_v20 (c : Dev nD) : (W4 m ρ c (Proc.devRef .tc main_v20) : S256.Idx → EReal) = W3 m ρ c (Proc.devRef .tc main_v20) :=
  W4_of_ne m ρ c main_v20 (by decide)
theorem W4_arg3 (c : Dev nD) : (W4 m ρ c (Proc.devRef .tc main_arg3) : S256.Idx → EReal) = W3 m ρ c (Proc.devRef .tc main_arg3) :=
  W4_of_ne m ρ c main_arg3 (by decide)

/-! ## The second region's exit (its entry is the stretch after the first region, from the first region's exit) -/

/-- Its output array: each aggregated row scaled by the receiver's factor, the bias added, rectified. -/
theorem W6_v34 (c : Dev nD) : (W6 m ρ c (Proc.devRef .tc main_v34) : S50000x256.Idx → EReal)
    = scaleShiftMax (W5 m ρ c (Proc.devRef .tc main_v32)) (W5 m ρ c (Proc.devRef .tc main_v15)) (W5 m ρ c (Proc.devRef .tc main_v33)) :=
  (W6_arr m ρ c 3).trans (region1_final (V5 m ρ) c)

theorem W6_v15 (c : Dev nD) : (W6 m ρ c (Proc.devRef .tc main_v15) : S50000x1.Idx → EReal) = W5 m ρ c (Proc.devRef .tc main_v15) :=
  (W6_arr m ρ c 1).trans (((dat1 (F := Ideal) (V5 m ρ) c).arrAt_in 1 rfl cfg1.N).trans (A_eq1 (V5 m ρ) c 1))
theorem W6_v3 (c : Dev nD) : (W6 m ρ c (Proc.devRef .tc main_v3) : S850000.Idx → BitVec 32) = W5 m ρ c (Proc.devRef .tc main_v3) :=
  W6_of_ne m ρ c main_v3 (by decide)
theorem W6_v6 (c : Dev nD) : (W6 m ρ c (Proc.devRef .tc main_v6) : S850000.Idx → BitVec 32) = W5 m ρ c (Proc.devRef .tc main_v6) :=
  W6_of_ne m ρ c main_v6 (by decide)
theorem W6_v19 (c : Dev nD) : (W6 m ρ c (Proc.devRef .tc main_v19) : S256x256.Idx → EReal) = W5 m ρ c (Proc.devRef .tc main_v19) :=
  W6_of_ne m ρ c main_v19 (by decide)
theorem W6_v20 (c : Dev nD) : (W6 m ρ c (Proc.devRef .tc main_v20) : S256.Idx → EReal) = W5 m ρ c (Proc.devRef .tc main_v20) :=
  W6_of_ne m ρ c main_v20 (by decide)

/-! ## The third region's exit (its entry is the second region's exit) -/

/-- Its output array: the rows of H · (W_mu | W_ls), each scaled by its node's factor. -/
theorem W7_v35 (c : Dev nD) : (W7 m ρ c (Proc.devRef .tc main_v35) : S50000x256.Idx → EReal)
    = matScale (W6 m ρ c (Proc.devRef .tc main_v34)) (W6 m ρ c (Proc.devRef .tc main_v19)) (W6 m ρ c (Proc.devRef .tc main_v15)) :=
  (W7_arr m ρ c 3).trans (region2_final (V6 m ρ) c)

theorem W7_v15 (c : Dev nD) : (W7 m ρ c (Proc.devRef .tc main_v15) : S50000x1.Idx → EReal) = W6 m ρ c (Proc.devRef .tc main_v15) :=
  (W7_arr m ρ c 2).trans (((dat2 (F := Ideal) (V6 m ρ) c).arrAt_in 2 rfl cfg2.N).trans (A_eq2 (V6 m ρ) c 2))
theorem W7_v3 (c : Dev nD) : (W7 m ρ c (Proc.devRef .tc main_v3) : S850000.Idx → BitVec 32) = W6 m ρ c (Proc.devRef .tc main_v3) :=
  W7_of_ne m ρ c main_v3 (by decide)
theorem W7_v6 (c : Dev nD) : (W7 m ρ c (Proc.devRef .tc main_v6) : S850000.Idx → BitVec 32) = W6 m ρ c (Proc.devRef .tc main_v6) :=
  W7_of_ne m ρ c main_v6 (by decide)
theorem W7_v20 (c : Dev nD) : (W7 m ρ c (Proc.devRef .tc main_v20) : S256.Idx → EReal) = W6 m ρ c (Proc.devRef .tc main_v20) :=
  W7_of_ne m ρ c main_v20 (by decide)

/-! ## The fourth region's exit (its entry is the stretch after the third region, from the third region's exit) -/

/-- Its output array: each aggregated row scaled by the receiver's factor, the joined biases added. -/
theorem W9_v48 (c : Dev nD) : (W9 m ρ c (Proc.devRef .tc main_v48) : S50000x256.Idx → EReal)
    = scaleShift (W8 m ρ c (Proc.devRef .tc main_v46)) (W8 m ρ c (Proc.devRef .tc main_v15)) (W8 m ρ c (Proc.devRef .tc main_v47)) :=
  (W9_arr m ρ c 3).trans (region3_final (V8 m ρ) c)

/-! ## The values, entry by entry

The graph's data are the four names of the edge array (the sender, the landing number, the factor); X, W₁, b₁ are the
feature matrix, the first weights and the first bias, and the second round's weights and bias are the two matrices
side by side and the two vectors end to end. -/

/-- The factor column, read at (n, 0), is node n's factor. -/
theorem factor_col_apply (c : Dev nD) (n : Fin 50000) :
    shapeCast S50000x1 (Cert.ReferenceIdeal.ReadP.val_main_v14 (F := Ideal) (edges m c)) shapeCasts_S50000_S50000x1 (ix2 n 0) = dinv (edges m c) n := by
  rw [shapeCast_a_a1_apply]
  unfold dinv
  rfl

/-- The factor column at every later boundary is the one the first region was entered with. -/
theorem W5_v15 (c : Dev nD) : (W5 m ρ c (Proc.devRef .tc main_v15) : S50000x1.Idx → EReal)
    = shapeCast S50000x1 (Cert.ReferenceIdeal.ReadP.val_main_v14 (F := Ideal) (edges m c)) shapeCasts_S50000_S50000x1 :=
  (stretch1_v15 (W4 m ρ c)).trans ((W4_v15 m ρ c).trans (W3_v15 m ρ c))
theorem W6_v15' (c : Dev nD) : (W6 m ρ c (Proc.devRef .tc main_v15) : S50000x1.Idx → EReal)
    = shapeCast S50000x1 (Cert.ReferenceIdeal.ReadP.val_main_v14 (F := Ideal) (edges m c)) shapeCasts_S50000_S50000x1 :=
  (W6_v15 m ρ c).trans (W5_v15 m ρ c)
theorem W8_v15 (c : Dev nD) : (W8 m ρ c (Proc.devRef .tc main_v15) : S50000x1.Idx → EReal)
    = shapeCast S50000x1 (Cert.ReferenceIdeal.ReadP.val_main_v14 (F := Ideal) (edges m c)) shapeCasts_S50000_S50000x1 :=
  (stretch3_v15 (W7 m ρ c)).trans ((W7_v15 m ρ c).trans (W6_v15' m ρ c))

/-- The sender and receiver rows at the third region's exit are the ones the first region was entered with. -/
theorem W7_v3' (c : Dev nD) : (W7 m ρ c (Proc.devRef .tc main_v3) : S850000.Idx → BitVec 32)
    = Cert.ReferenceIdeal.ReadP.val_main_v3 (F := Ideal) (edges m c) :=
  (W7_v3 m ρ c).trans ((W6_v3 m ρ c).trans ((stretch1_v3 (W4 m ρ c)).trans ((W4_v3 m ρ c).trans (W3_v3 m ρ c))))
theorem W7_v6' (c : Dev nD) : (W7 m ρ c (Proc.devRef .tc main_v6) : S850000.Idx → BitVec 32)
    = Cert.ReferenceIdeal.ReadP.val_main_v6 (F := Ideal) (edges m c) :=
  (W7_v6 m ρ c).trans ((W6_v6 m ρ c).trans ((stretch1_v6 (W4 m ρ c)).trans ((W4_v6 m ρ c).trans (W3_v6 m ρ c))))

/-- The joined weights and biases at the boundaries that read them. -/
theorem W6_v19' (c : Dev nD) : (W6 m ρ c (Proc.devRef .tc main_v19) : S256x256.Idx → EReal)
    = truncf (F := Ideal) .bf16 (concatenate S256x256 1 [⟨S256x128, arg4 m c⟩, ⟨S256x128, arg6 m c⟩]
        concatenates_S256x128_S256x128_S256x256_d1 : FVec Ideal S256x256 .f32) bitsLt_bf16_f32 :=
  (W6_v19 m ρ c).trans ((stretch1_v19 (W4 m ρ c)).trans ((W4_v19 m ρ c).trans (W3_v19 m ρ c)))
theorem W7_v20' (c : Dev nD) : (W7 m ρ c (Proc.devRef .tc main_v20) : S256.Idx → EReal)
    = concatenate S256 0 [⟨S128, arg5 m c⟩, ⟨S128, arg7 m c⟩] concatenates_S128_S128_S256_d0 :=
  (W7_v20 m ρ c).trans ((W6_v20 m ρ c).trans ((stretch1_v20 (W4 m ρ c)).trans ((W4_v20 m ρ c).trans (W3_v20 m ρ c))))

/-- THE FIRST REGION'S OUTPUT at (n, j): row n of X · W₁ at column j, times node n's factor. -/
theorem v21_apply (c : Dev nD) (n : Fin 50000) (j : Fin 256) :
    (W4 m ρ c (Proc.devRef .tc main_v21) : S50000x256.Idx → EReal) (ix2 n j) = lin (mat (arg0 m c)) (mat (arg2 m c)) n j * dinv (edges m c) n := by
  rw [W4_v21 m ρ c, matScale_ix2, W3_v16 m ρ c, W3_v17 m ρ c, W3_v15 m ρ c, factor_col_apply m c n]
  rfl

/-- THE FIRST AGGREGATION at (v, k): the sum over the edges landing on v of the sender's scaled row. -/
theorem v32_apply (c : Dev nD) (v : Fin 50000) (k : Fin 256) :
    (W5 m ρ c (Proc.devRef .tc main_v32) : S50000x256.Idx → EReal) (ix2 v k)
      = 0 + ∑ e ∈ into (lands (edges m c)) v, lin (mat (arg0 m c)) (mat (arg2 m c)) ((sender (edges m c)) e) k * (dinv (edges m c)) ((sender (edges m c)) e) := by
  have h := stretch1_v32 (W4 m ρ c)
  rw [W4_v3 m ρ c, W4_v6 m ρ c, W3_v3 m ρ c, W3_v6 m ρ c] at h
  refine (congrFun h (ix2 v k)).trans ?_
  rw [aggregate_apply]
  exact congrArg (0 + ·) (Finset.sum_congr rfl fun e _ => v21_apply m ρ c (sender (edges m c) e) k)

/-- THE HIDDEN FEATURES at (n, j): the first round, rectified. -/
theorem v34_apply (c : Dev nD) (n : Fin 50000) (j : Fin 256) :
    (W6 m ρ c (Proc.devRef .tc main_v34) : S50000x256.Idx → EReal) (ix2 n j)
      = max (layerK (sender (edges m c)) (lands (edges m c)) (dinv (edges m c)) (lin (mat (arg0 m c)) (mat (arg2 m c))) (vec (arg3 m c)) n j) 0 := by
  have h33 : (W5 m ρ c (Proc.devRef .tc main_v33) : S1x256.Idx → EReal) = shapeCast S1x256 (arg3 m c) shapeCasts_S256_S1x256 :=
    (stretch1_v33 (W4 m ρ c)).trans (by rw [W4_arg3 m ρ c, W3_arg3 m ρ c])
  rw [W6_v34 m ρ c, scaleShiftMax_ix2, v32_apply m ρ c n j, W5_v15 m ρ c, factor_col_apply m c n, h33, shapeCast_a_1a_apply]
  rfl

/-- THE THIRD REGION'S OUTPUT at (n, j): row n of H · (W_mu | W_ls) at column j, times node n's factor. -/
theorem v35_apply (c : Dev nD) (n : Fin 50000) (j : Fin 256) :
    (W7 m ρ c (Proc.devRef .tc main_v35) : S50000x256.Idx → EReal) (ix2 n j)
      = lin (fun n k => max (layerK (sender (edges m c)) (lands (edges m c)) (dinv (edges m c)) (lin (mat (arg0 m c)) (mat (arg2 m c))) (vec (arg3 m c)) n k) 0) (catCols (mat (arg4 m c)) (mat (arg6 m c))) n j * dinv (edges m c) n := by
  rw [W7_v35 m ρ c, matScale_ix2, W6_v19' m ρ c, W6_v15' m ρ c, factor_col_apply m c n]
  refine congrArg (· * dinv (edges m c) n) ?_
  unfold lin
  refine Finset.sum_congr rfl fun k _ => ?_
  rw [v34_apply m ρ c n k]
  refine congrArg (max (layerK (sender (edges m c)) (lands (edges m c)) (dinv (edges m c)) (lin (mat (arg0 m c)) (mat (arg2 m c))) (vec (arg3 m c)) n k) 0 * ·) ?_
  exact concat_cols_apply (arg4 m c) (arg6 m c) concatenates_S256x128_S256x128_S256x256_d1 k j

/-- THE SECOND AGGREGATION at (v, k). -/
theorem v46_apply (c : Dev nD) (v : Fin 50000) (k : Fin 256) :
    (W8 m ρ c (Proc.devRef .tc main_v46) : S50000x256.Idx → EReal) (ix2 v k)
      = 0 + ∑ e ∈ into (lands (edges m c)) v, lin (fun n k => max (layerK (sender (edges m c)) (lands (edges m c)) (dinv (edges m c)) (lin (mat (arg0 m c)) (mat (arg2 m c))) (vec (arg3 m c)) n k) 0) (catCols (mat (arg4 m c)) (mat (arg6 m c))) ((sender (edges m c)) e) k * (dinv (edges m c)) ((sender (edges m c)) e) := by
  have h := stretch3_v46 (W7 m ρ c)
  rw [W7_v3' m ρ c, W7_v6' m ρ c] at h
  refine (congrFun h (ix2 v k)).trans ?_
  rw [aggregate_apply]
  exact congrArg (0 + ·) (Finset.sum_congr rfl fun e _ => v35_apply m ρ c (sender (edges m c) e) k)

/-- THE FOURTH REGION'S OUTPUT at (n, j): the network with the joined second-round weights, column j. -/
theorem v48_apply (c : Dev nD) (n : Fin 50000) (j : Fin 256) :
    (W9 m ρ c (Proc.devRef .tc main_v48) : S50000x256.Idx → EReal) (ix2 n j)
      = gcnK (sender (edges m c)) (lands (edges m c)) (dinv (edges m c)) (mat (arg0 m c)) (mat (arg2 m c)) (vec (arg3 m c)) (catCols (mat (arg4 m c)) (mat (arg6 m c))) (catVec (vec (arg5 m c)) (vec (arg7 m c))) n j := by
  have h47 : (W8 m ρ c (Proc.devRef .tc main_v47) : S1x256.Idx → EReal)
      = shapeCast S1x256 (concatenate S256 0 [⟨S128, arg5 m c⟩, ⟨S128, arg7 m c⟩] concatenates_S128_S128_S256_d0) shapeCasts_S256_S1x256 :=
    (stretch3_v47 (W7 m ρ c)).trans (by rw [W7_v20' m ρ c])
  rw [W9_v48 m ρ c, scaleShift_ix2, v46_apply m ρ c n j, W8_v15 m ρ c, factor_col_apply m c n, h47, shapeCast_a_1a_apply,
    concat_vec_apply]
  rfl

/-- THE FIRST RESULT at (v, j): the network with the first of the two second-round weight matrices. -/
theorem kernel_mu (c : Dev nD) (v : Fin 50000) (j : Fin 128) :
    (W10 m ρ c (Proc.devRef .tc main_v49) : S50000x128.Idx → EReal) (ix2 v j)
      = gcnK (sender (edges m c)) (lands (edges m c)) (dinv (edges m c)) (mat (arg0 m c)) (mat (arg2 m c)) (vec (arg3 m c)) (mat (arg4 m c)) (vec (arg5 m c)) v j := by
  refine (congrFun (stretch4_v49 (W9 m ρ c)) (ix2 v j)).trans ?_
  rw [slice2_axis1_apply 0 _ slices_S50000x256_S50000x128_0_0 v j (colL j) (by show j.val = 0 + j.val; omega),
    v48_apply m ρ c v (colL j)]
  exact gcnK_cols colL _ _ _ _ _ _ _ _ _ _ (fun k j' => catCols_colL _ _ k j') (fun j' => catVec_colL _ _ j') v j

/-- THE SECOND RESULT at (v, j): the network with the second of them. -/
theorem kernel_ls (c : Dev nD) (v : Fin 50000) (j : Fin 128) :
    (W10 m ρ c (Proc.devRef .tc main_v50) : S50000x128.Idx → EReal) (ix2 v j)
      = gcnK (sender (edges m c)) (lands (edges m c)) (dinv (edges m c)) (mat (arg0 m c)) (mat (arg2 m c)) (vec (arg3 m c)) (mat (arg6 m c)) (vec (arg7 m c)) v j := by
  refine (congrFun (stretch4_v50 (W9 m ρ c)) (ix2 v j)).trans ?_
  rw [slice2_axis1_apply 128 _ slices_S50000x256_S50000x128_0_128 v j (colR j) (by show 128 + j.val = 128 + j.val; rfl),
    v48_apply m ρ c v (colR j)]
  exact gcnK_cols colR _ _ _ _ _ _ _ _ _ _ (fun k j' => catCols_colR _ _ k j') (fun j' => catVec_colR _ _ j') v j

end Cert.Gcn.Kernel

end
-- ==== Proof.Finite.lean ====
/-
  Under the precondition every entry of the seven float argument arrays is a real number.

  The precondition says, of each float argument x, that every entry's absolute value compares below +∞: entry by entry
  the comparison bit of max (x i) (−x i) against the word of +∞ is 1, the bits of one array are joined by an
  and-reduction over the whole array, and the seven results by six more ands, and the whole is 1. An and that is 1 had
  both sides 1; an and-reduction that is 1 had a 1 at every index; and an extended real whose absolute value is below
  +∞ is neither +∞ nor −∞, so it is a real number.
-/
import proofs.«109774_j31593779429476_2_alg».proof.Defs
import proofs.«109774_j31593779429476_2_alg».proof.Proof.Gen.Pre_finite_inputs
import proofs.«109774_j31593779429476_2_alg».proof.Proof.Gen.KernelIdeal
import proofs.«109774_j31593779429476_2_alg».proof.Proof.LibRealSums
import Idealize.ShloMosaic.Lib.ReduceAll
import Idealize.ShloMosaic.Lib.ValueIdx

noncomputable section

namespace Cert.Gcn.Finite

open Idealize.ShloMosaic Idealize.ShloMosaic.ValueIdx Idealize.SL.Sem Cert.RealSums

/-- The rank-0 shape has one index. -/
instance : Subsingleton Cert.Pre_finite_inputs.S_.Idx := ⟨fun a b => funext fun d => d.elim0⟩

/-- The word the entries are compared against is +∞. -/
theorem top_word : Ideal.ofBits .f32 0x7F800000#32 = (⊤ : EReal) := by
  simp [Ideal.ofBits, Ideal.ieee]

/-- An extended real whose absolute value is below +∞ is a real number. -/
theorem isReal_of_abs_lt_top (x : EReal) (h : max x (-x) < ⊤) : IsReal x := by
  induction x using EReal.rec with
  | bot => simp at h
  | coe r => exact ⟨r, rfl⟩
  | top => simp at h

/-- An entry whose comparison bit is 1 is a real number. -/
theorem entry_real {s : Shape} (x : FVec Ideal s .f32)
    (hb : Cert.Pre_finite_inputs.S_.BroadcastsInDim s (![] : Fin 0 → Fin s.rank)) (i : s.Idx)
    (h : cmpf (F := Ideal) .olt (Host.absf x)
        (broadcastInDim s ![] hb (constant (F := Ideal) Cert.Pre_finite_inputs.S_ .f32 0x7F800000#32)) i = 1#1) :
    IsReal (x i) := by
  have h' : BitVec.ofBool (decide (max (x i) (-(x i)) < Ideal.ofBits .f32 0x7F800000#32)) = 1#1 := h
  rw [top_word] at h'
  refine isReal_of_abs_lt_top _ ?_
  by_contra hn
  rw [decide_eq_false hn] at h'
  exact absurd h' (by decide)

/-- An and of two bit vectors that is 1 at an index had both 1 there. -/
theorem andi_split {s : Shape} (a b : IVec s 1) (i : s.Idx) (h : andi a b i = 1#1) : a i = 1#1 ∧ b i = 1#1 :=
  IntOp.andi_eq_one.1 h

open Cert.KernelIdeal in
/-- EVERY FLOAT ARGUMENT IS REAL, entry by entry, in a memory of which the precondition holds. -/
theorem args_real (m : (ℓ : Loc nD τ sig) → Buf (Elt Ideal) ℓ) (hpre : Cert.Pre_KernelIdeal m) (c : Dev nD) :
    (∀ i : S50000x256.Idx, IsReal ((m ((c.tc : Thread nD τ).loc main_arg0) : S50000x256.Idx → EReal) i))
      ∧ (∀ i : S256x256.Idx, IsReal ((m ((c.tc : Thread nD τ).loc main_arg2) : S256x256.Idx → EReal) i))
      ∧ (∀ i : S256.Idx, IsReal ((m ((c.tc : Thread nD τ).loc main_arg3) : S256.Idx → EReal) i))
      ∧ (∀ i : S256x128.Idx, IsReal ((m ((c.tc : Thread nD τ).loc main_arg4) : S256x128.Idx → EReal) i))
      ∧ (∀ i : S128.Idx, IsReal ((m ((c.tc : Thread nD τ).loc main_arg5) : S128.Idx → EReal) i))
      ∧ (∀ i : S256x128.Idx, IsReal ((m ((c.tc : Thread nD τ).loc main_arg6) : S256x128.Idx → EReal) i))
      ∧ (∀ i : S128.Idx, IsReal ((m ((c.tc : Thread nD τ).loc main_arg7) : S128.Idx → EReal) i)) := by
  have h := congrFun (hpre c) ValueIdx.ix0
  dsimp only [Cert.Pre_finite_inputs.fn, Cert.Pre_finite_inputs.fn_part1] at h
  obtain ⟨h, h7⟩ := andi_split _ _ _ h
  obtain ⟨h, h6⟩ := andi_split _ _ _ h
  obtain ⟨h, h5⟩ := andi_split _ _ _ h
  obtain ⟨h, h4⟩ := andi_split _ _ _ h
  obtain ⟨h, h3⟩ := andi_split _ _ _ h
  obtain ⟨h0, h2⟩ := andi_split _ _ _ h
  exact ⟨fun i => entry_real _ _ i (Host.reduce_andi_all _ _ _ _ _ h0 i),
    fun i => entry_real _ _ i (Host.reduce_andi_all _ _ _ _ _ h2 i),
    fun i => entry_real _ _ i (Host.reduce_andi_all _ _ _ _ _ h3 i),
    fun i => entry_real _ _ i (Host.reduce_andi_all _ _ _ _ _ h4 i),
    fun i => entry_real _ _ i (Host.reduce_andi_all _ _ _ _ _ h5 i),
    fun i => entry_real _ _ i (Host.reduce_andi_all _ _ _ _ _ h6 i),
    fun i => entry_real _ _ i (Host.reduce_andi_all _ _ _ _ _ h7 i)⟩

end Cert.Gcn.Finite

end
-- ==== Proof.lean ====
/-
  A two-layer graph convolution with self-loops and symmetric normalisation, computed two ways, gives the same two
  results on finite inputs, as extended reals.

  Both programs take a feature matrix X [50000, 256], an edge array [2, 800000] of sender and receiver numbers, first
  weights W₁ [256, 256] and bias b₁, and two pairs of second weights and biases (W_mu, b_mu), (W_ls, b_ls) of width 128.
  Both append a self-loop per node, count every node's in-degree and take its inverse square root D (0 where the degree
  is 0). A round sends the rows of Y = H · W along the edges and gives node v the sum of what lands on it, each
  message weighted by D(sender) · D(v), plus the bias; the network is a first round on X with W₁, b₁, a rectifier,
  and a second round with W_mu, b_mu (the first result) and with W_ls, b_ls (the second).

  The reference weights every message by the product of the two factors, gathered per edge, before summing. The
  kernel scales each row by its own node's factor inside the grid region that forms H · W, sums the rows that land
  on a node on the host, and scales the sum by the receiver's factor, adding the bias, in a second grid region; it
  forms both second rounds at once from the two weight matrices set side by side and cuts the result in two. So
  the claim is the distributive law, a factor moved across a finite sum — false at infinities on the extended reals,
  true on real numbers: the precondition makes every float entry real (Finite.lean), the degrees are finite counts,
  hence the factors real (RefIndex.lean), and real data stay real through sums, products and the rectifier
  (GcnSpec.lean, gcn_eq). An edge lands on node v exactly when its receiver number is v, and then the factor the
  reference gathers for its receiving end is D v (receiverRow_of_lands).

  The idealized kernel's run, with each result array read as the network in its arrangement (gcnK), is KernelRun.lean
  (the run), KernelEntry.lean, KernelAggregate.lean, RegionValues.lean and KernelChain.lean (the values, boundary by
  boundary); the reference's two results as the network in its arrangement (gcnR) is RefValue.lean, over its run read
  back (RefRun.lean, RefRead.lean). The word-level kernel and its idealization differ in no operation
  (preserves is trivial): every change of float format is on the way into a matrix product or out of a region and
  is the identity on extended reals.
-/
import proofs.«109774_j31593779429476_2_alg».proof.Defs
import proofs.«109774_j31593779429476_2_alg».proof.Proof.Gen.Kernel
import proofs.«109774_j31593779429476_2_alg».proof.Proof.Gen.Kernel.Skeleton
import proofs.«109774_j31593779429476_2_alg».proof.Proof.Gen.Kernel.Launch
import proofs.«109774_j31593779429476_2_alg».proof.Proof.Gen.Kernel.Points
import proofs.«109774_j31593779429476_2_alg».proof.Proof.Gen.Kernel.Frame
import proofs.«109774_j31593779429476_2_alg».proof.Proof.Gen.KernelIdeal
import proofs.«109774_j31593779429476_2_alg».proof.Proof.Gen.KernelIdeal.Skeleton
import proofs.«109774_j31593779429476_2_alg».proof.Proof.Gen.KernelIdeal.Launch
import proofs.«109774_j31593779429476_2_alg».proof.Proof.Gen.KernelIdeal.Points
import proofs.«109774_j31593779429476_2_alg».proof.Proof.Gen.KernelIdeal.Frame
import proofs.«109774_j31593779429476_2_alg».proof.Proof.Gen.ReferenceIdeal
import proofs.«109774_j31593779429476_2_alg».proof.Proof.Gen.Pre_finite_inputs
import proofs.«109774_j31593779429476_2_alg».proof.Proof.RefRun
import proofs.«109774_j31593779429476_2_alg».proof.Proof.RefRead
import proofs.«109774_j31593779429476_2_alg».proof.Proof.GcnSpec
import proofs.«109774_j31593779429476_2_alg».proof.Proof.GcnData
import proofs.«109774_j31593779429476_2_alg».proof.Proof.RefIndex
import proofs.«109774_j31593779429476_2_alg».proof.Proof.RefValue
import proofs.«109774_j31593779429476_2_alg».proof.Proof.KernelRun
import proofs.«109774_j31593779429476_2_alg».proof.Proof.KernelChain
import proofs.«109774_j31593779429476_2_alg».proof.Proof.Finite
import Idealize.ShloMosaic.Adequacy
import Idealize.ShloMosaic.Init

noncomputable section

namespace Cert.Proof

open Idealize.ShloMosaic Idealize.ShloMosaic.ValueIdx Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no grid region: its frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-! ## The idealization rewrote nothing -/

theorem preserves : Cert.preserves_Kernel_KernelIdeal := trivial

/-! ## The two results agree -/

open Cert.Gcn Cert.Gcn.Kernel in
/-- From memories agreeing on the arguments, of which the precondition holds, both idealized programs run, the
    kernel's result arrays ending at the last boundary's contents and the reference's at the same arrays: index by
    index the kernel's is the network with scaled rows and scaled sums, the reference's the network with scaled
    messages, and the two agree on real data. -/
theorem algebraic : Cert.algebraic_KernelIdeal_ReferenceIdeal := by
  intro m ρ m' ρ' hpre hagree
  refine ⟨fun c => Cert.KernelIdeal.Gen.W10 m ρ c (Proc.devRef .tc Cert.KernelIdeal.main_v49),
    fun c => Cert.KernelIdeal.Gen.W10 m ρ c (Proc.devRef .tc Cert.KernelIdeal.main_v50), run_results m ρ, ?_⟩
  refine (θ_run Cert.ReferenceIdeal.defs _ _).mono (fun r h c => ?_) (Cert.ReferenceIdeal.ValueP.run (F := Ideal) m' ρ')
  obtain ⟨h64, h81, hargs⟩ := h c
  obtain ⟨e0, e1, e2, e3, e4, e5, e6, e7⟩ := hagree c
  obtain ⟨r0, r2, r3, r4, r5, r6, r7⟩ := Cert.Gcn.Finite.args_real m hpre c
  refine ⟨h64.trans ?_, h81.trans ?_, hargs⟩
  · rw [Cert.ReferenceIdeal.ReadP.val_main_v64_eq, e0, e1, e2, e3, e4, e5]
    funext i
    obtain ⟨v, j, rfl⟩ : ∃ (v : Fin 50000) (j : Fin 128), i = ix2 v j := ⟨i 0, i 1, eq_ix2 i⟩
    rw [Cert.Gcn.Ref.ref_mu]
    refine Eq.trans ?_ (kernel_mu m ρ c v j).symm
    exact (gcn_eq (sender (edges m c)) (receiverRow (edges m c)) (lands (edges m c)) (dinv (edges m c))
      (mat (arg0 m c)) (mat (arg2 m c)) (vec (arg3 m c)) (mat (arg4 m c)) (vec (arg5 m c))
      (fun n k => r0 (ix2 n k)) (fun k j' => r2 (ix2 k j')) (fun j' => r3 (ix1 j')) (fun k j' => r4 (ix2 k j'))
      (Cert.Gcn.Ref.isReal_dinv (edges m c)) (Cert.Gcn.Ref.receiverRow_of_lands (edges m c)) v j).symm
  · rw [Cert.ReferenceIdeal.ReadP.val_main_v81_eq, e0, e1, e2, e3, e6, e7]
    funext i
    obtain ⟨v, j, rfl⟩ : ∃ (v : Fin 50000) (j : Fin 128), i = ix2 v j := ⟨i 0, i 1, eq_ix2 i⟩
    rw [Cert.Gcn.Ref.ref_ls]
    refine Eq.trans ?_ (kernel_ls m ρ c v j).symm
    exact (gcn_eq (sender (edges m c)) (receiverRow (edges m c)) (lands (edges m c)) (dinv (edges m c))
      (mat (arg0 m c)) (mat (arg2 m c)) (vec (arg3 m c)) (mat (arg6 m c)) (vec (arg7 m c))
      (fun n k => r0 (ix2 n k)) (fun k j' => r2 (ix2 k j')) (fun j' => r3 (ix1 j')) (fun k j' => r6 (ix2 k j'))
      (Cert.Gcn.Ref.isReal_dinv (edges m c)) (Cert.Gcn.Ref.receiverRow_of_lands (edges m c)) v j).symm

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
